-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_arg13 : FVec F S64x128 .f32) (main_arg14 : FVec F S64 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S64x128 .f32 := Host.absf main_arg13
  let main_cst_20 : FVec F S_ .f32 := constant S_ .f32 0x7F800000#32
  let main_v55 : FVec F S64x128 .f32 := broadcastInDim S64x128 ![] bcast_S_S64x128 main_cst_20
  let main_v56 : IVec S64x128 1 := cmpf .olt main_v54 main_v55
  let main_c_21 : IVec S_ 1 := constantI S_ 1 1#1
  let main_v57 : IVec S_ 1 := (fun x v => Host.reduce IntOp.andi x v reducesTo_S64x128_S_d0_1 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  main_v63

def fn_part2 {F : FTy → Type} [FloatOps F] (main_arg9 : FVec F S128x128 .f32) (main_arg10 : FVec F S128 .f32) (main_arg11 : FVec F S128x128 .f32) (main_arg12 : FVec F S128 .f32) (main_arg13 : FVec F S64x128 .f32) (main_arg14 : FVec F S64 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_v48 main_v49 main_v50

def fn_part1 {F : FTy → Type} [FloatOps F] (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S64x128 .f32) (main_arg14 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S50000x128 .f32) (main_arg1 : IVec S800000 32) (main_arg2 : IVec S800000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S64x128 .f32) (main_arg14 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S2000x128 : Shape := ⟨2, ![2000, 128]⟩
abbrev S128x64 : Shape := ⟨2, ![128, 64]⟩
abbrev S1x64 : Shape := ⟨2, ![1, 64]⟩
abbrev S50000x64 : Shape := ⟨2, ![50000, 64]⟩
abbrev S2000x64 : Shape := ⟨2, ![2000, 64]⟩

abbrev nBuf : Space → Nat
  | .hbm => 80
  | .vmem => 28
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S64x128, .f32⟩
  | .hbm, ⟨14, _⟩ => ⟨S64, .f32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x128, .f32⟩
  | .hbm, ⟨24, _⟩ => ⟨S_, .f32⟩
  | .hbm, ⟨25, _⟩ => ⟨S50000x128, .f32⟩
  | .hbm, ⟨26, _⟩ => ⟨S800000x1, .i32⟩
  | .hbm, ⟨27, _⟩ => ⟨S50000x128, .f32⟩
  | .hbm, ⟨28, _⟩ => ⟨S_, .f32⟩
  | .hbm, ⟨29, _⟩ => ⟨S800000, .f32⟩
  | .hbm, ⟨30, _⟩ => ⟨S_, .f32⟩
  | .hbm, ⟨31, _⟩ => ⟨S50000, .f32⟩
  | .hbm, ⟨32, _⟩ => ⟨S800000x1, .i32⟩
  | .hbm, ⟨33, _⟩ => ⟨S50000, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S50000x1, .f32⟩
  | .hbm, ⟨38, _⟩ => ⟨S50000x128, .f32⟩
  | .hbm, ⟨39, _⟩ => ⟨S50000x128, .f32⟩
  | .hbm, ⟨40, _⟩ => ⟨S128x128, .f32⟩
  | .hbm, ⟨41, _⟩ => ⟨S128x128, .f32⟩
  | .hbm, ⟨42, _⟩ => ⟨S1x128, .f32⟩
  | .hbm, ⟨43, _⟩ => ⟨S1x128, .f32⟩
  | .hbm, ⟨44, _⟩ => ⟨S50000x128, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x128, .f32⟩
  | .hbm, ⟨54, _⟩ => ⟨S_, .f32⟩
  | .hbm, ⟨55, _⟩ => ⟨S50000x128, .f32⟩
  | .hbm, ⟨56, _⟩ => ⟨S800000x1, .i32⟩
  | .hbm, ⟨57, _⟩ => ⟨S50000x128, .f32⟩
  | .hbm, ⟨58, _⟩ => ⟨S_, .f32⟩
  | .hbm, ⟨59, _⟩ => ⟨S800000, .f32⟩
  | .hbm, ⟨60, _⟩ => ⟨S_, .f32⟩
  | .hbm, ⟨61, _⟩ => ⟨S50000, .f32⟩
  | .hbm, ⟨62, _⟩ => ⟨S800000x1, .i32⟩
  | .hbm, ⟨63, _⟩ => ⟨S50000, .f32⟩
  | .hbm, ⟨64, _⟩ => ⟨S_, .f32⟩
  | .hbm, ⟨65, _⟩ => ⟨S50000, .f32⟩
  | .hbm, ⟨66, _⟩ => ⟨S50000, .f32⟩
  | .hbm, ⟨67, _⟩ => ⟨S50000x1, .f32⟩
  | .hbm, ⟨68, _⟩ => ⟨S50000x128, .f32⟩
  | .hbm, ⟨69, _⟩ => ⟨S50000x128, .f32⟩
  | .hbm, ⟨70, _⟩ => ⟨S128x128, .f32⟩
  | .hbm, ⟨71, _⟩ => ⟨S128x128, .f32⟩
  | .hbm, ⟨72, _⟩ => ⟨S1x128, .f32⟩
  | .hbm, ⟨73, _⟩ => ⟨S1x128, .f32⟩
  | .hbm, ⟨74, _⟩ => ⟨S50000x128, .f32⟩
  | .hbm, ⟨75, _⟩ => ⟨S128x128, .f32⟩
  | .hbm, ⟨76, _⟩ => ⟨S128x64, .f32⟩
  | .hbm, ⟨77, _⟩ => ⟨S1x128, .f32⟩
  | .hbm, ⟨78, _⟩ => ⟨S1x64, .f32⟩
  | .hbm, ⟨79, _⟩ => ⟨S50000x64, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S128x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x128, .f32⟩
  | .local _ .vmem, ⟨23, _⟩ => ⟨S1x128, .f32⟩
  | .local _ .vmem, ⟨24, _⟩ => ⟨S128x64, .f32⟩
  | .local _ .vmem, ⟨25, _⟩ => ⟨S1x64, .f32⟩
  | .local _ .vmem, ⟨26, _⟩ => ⟨S2000x64, .f32⟩
  | .local _ .vmem, ⟨27, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst_1 : Ref sig .tc := ⟨.hbm, 28, rfl⟩
abbrev main_v10 : Ref sig .tc := ⟨.hbm, 29, rfl⟩
abbrev main_cst_2 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_3 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_4 : Ref sig .tc := ⟨.hbm, 45, rfl⟩
abbrev main_v24 : Ref sig .tc := ⟨.hbm, 46, rfl⟩
abbrev main_v25 : Ref sig .tc := ⟨.hbm, 47, rfl⟩
abbrev main_c_5 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_6 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_7 : Ref sig .tc := ⟨.hbm, 58, rfl⟩
abbrev main_v34 : Ref sig .tc := ⟨.hbm, 59, rfl⟩
abbrev main_cst_8 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_9 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg5_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem5_1 : DmaSem sig := 27

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  transposes_S64x128_S128x64_1_0 : S64x128.Transposes [1, 0] S128x64
  shapeCasts_S64_S1x64 : S64.ShapeCasts S1x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S50000x128.size a
  hwx0_6 : ∀ i : grid0.Coords, EltTy.bits .f32 = 32 ∨ (Rect.block (s := S50000x128) S2000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S50000x128.size a
  hwx1_6 : ∀ i : grid1.Coords, EltTy.bits .f32 = 32 ∨ (Rect.block (s := S50000x128) S2000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x64.size a ≤ S50000x64.size a
  hwx2_5 : ∀ i : grid2.Coords, EltTy.bits .f32 = 32 ∨ (Rect.block (s := S50000x64) S2000x64.size (cc2_transform_5 i) (hinb2_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v23) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v43) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v46) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v47) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v47) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v48) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v50) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v49) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v51) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v52) S2000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S128x64 : Shape := ⟨2, ![128, 64]⟩
abbrev S50000x64 : Shape := ⟨2, ![50000, 64]⟩
abbrev S1x64 : Shape := ⟨2, ![1, 64]⟩

abbrev nBuf : Space → Nat
  | .hbm => 112
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S64x128, .f32⟩
  | .hbm, ⟨14, _⟩ => ⟨S64, .f32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x128, .f32⟩
  | .hbm, ⟨24, _⟩ => ⟨S_, .f32⟩
  | .hbm, ⟨25, _⟩ => ⟨S50000x128, .f32⟩
  | .hbm, ⟨26, _⟩ => ⟨S800000x1, .i32⟩
  | .hbm, ⟨27, _⟩ => ⟨S50000x128, .f32⟩
  | .hbm, ⟨28, _⟩ => ⟨S_, .f32⟩
  | .hbm, ⟨29, _⟩ => ⟨S800000, .f32⟩
  | .hbm, ⟨30, _⟩ => ⟨S_, .f32⟩
  | .hbm, ⟨31, _⟩ => ⟨S50000, .f32⟩
  | .hbm, ⟨32, _⟩ => ⟨S800000x1, .i32⟩
  | .hbm, ⟨33, _⟩ => ⟨S50000, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S50000x1, .f32⟩
  | .hbm, ⟨38, _⟩ => ⟨S50000x128, .f32⟩
  | .hbm, ⟨39, _⟩ => ⟨S50000x128, .f32⟩
  | .hbm, ⟨40, _⟩ => ⟨S50000x128, .f32⟩
  | .hbm, ⟨41, _⟩ => ⟨S128x128, .f32⟩
  | .hbm, ⟨42, _⟩ => ⟨S50000x128, .f32⟩
  | .hbm, ⟨43, _⟩ => ⟨S1x128, .f32⟩
  | .hbm, ⟨44, _⟩ => ⟨S50000x128, .f32⟩
  | .hbm, ⟨45, _⟩ => ⟨S50000x128, .f32⟩
  | .hbm, ⟨46, _⟩ => ⟨S_, .f32⟩
  | .hbm, ⟨47, _⟩ => ⟨S50000x128, .f32⟩
  | .hbm, ⟨48, _⟩ => ⟨S50000x128, .f32⟩
  | .hbm, ⟨49, _⟩ => ⟨S128x128, .f32⟩
  | .hbm, ⟨50, _⟩ => ⟨S50000x128, .f32⟩
  | .hbm, ⟨51, _⟩ => ⟨S1x128, .f32⟩
  | .hbm, ⟨52, _⟩ => ⟨S50000x128, .f32⟩
  | .hbm, ⟨53, _⟩ => ⟨S50000x128, .f32⟩
  | .hbm, ⟨54, _⟩ => ⟨S_, .f32⟩
  | .hbm, ⟨55, _⟩ => ⟨S50000x128, .f32⟩
  | .hbm, ⟨56, _⟩ => ⟨S50000x128, .f32⟩
  | .hbm, ⟨57, _⟩ => ⟨S_, .i32⟩
  | .hbm, ⟨58, _⟩ => ⟨S800000, .i32⟩
  | .hbm, ⟨59, _⟩ => ⟨S800000, .i1⟩
  | .hbm, ⟨60, _⟩ => ⟨S_, .i32⟩
  | .hbm, ⟨61, _⟩ => ⟨S800000, .i32⟩
  | .hbm, ⟨62, _⟩ => ⟨S800000, .i32⟩
  | .hbm, ⟨63, _⟩ => ⟨S800000, .i32⟩
  | .hbm, ⟨64, _⟩ => ⟨S800000x1, .i32⟩
  | .hbm, ⟨65, _⟩ => ⟨S800000x128, .f32⟩
  | .hbm, ⟨66, _⟩ => ⟨S_, .f32⟩
  | .hbm, ⟨67, _⟩ => ⟨S50000x128, .f32⟩
  | .hbm, ⟨68, _⟩ => ⟨S800000x1, .i32⟩
  | .hbm, ⟨69, _⟩ => ⟨S50000x128, .f32⟩
  | .hbm, ⟨70, _⟩ => ⟨S_, .f32⟩
  | .hbm, ⟨71, _⟩ => ⟨S800000, .f32⟩
  | .hbm, ⟨72, _⟩ => ⟨S_, .f32⟩
  | .hbm, ⟨73, _⟩ => ⟨S50000, .f32⟩
  | .hbm, ⟨74, _⟩ => ⟨S800000x1, .i32⟩
  | .hbm, ⟨75, _⟩ => ⟨S50000, .f32⟩
  | .hbm, ⟨76, _⟩ => ⟨S_, .f32⟩
  | .hbm, ⟨77, _⟩ => ⟨S50000, .f32⟩
  | .hbm, ⟨78, _⟩ => ⟨S50000, .f32⟩
  | .hbm, ⟨79, _⟩ => ⟨S50000x1, .f32⟩
  | .hbm, ⟨80, _⟩ => ⟨S50000x128, .f32⟩
  | .hbm, ⟨81, _⟩ => ⟨S50000x128, .f32⟩
  | .hbm, ⟨82, _⟩ => ⟨S50000x128, .f32⟩
  | .hbm, ⟨83, _⟩ => ⟨S128x128, .f32⟩
  | .hbm, ⟨84, _⟩ => ⟨S50000x128, .f32⟩
  | .hbm, ⟨85, _⟩ => ⟨S1x128, .f32⟩
  | .hbm, ⟨86, _⟩ => ⟨S50000x128, .f32⟩
  | .hbm, ⟨87, _⟩ => ⟨S50000x128, .f32⟩
  | .hbm, ⟨88, _⟩ => ⟨S_, .f32⟩
  | .hbm, ⟨89, _⟩ => ⟨S50000x128, .f32⟩
  | .hbm, ⟨90, _⟩ => ⟨S50000x128, .f32⟩
  | .hbm, ⟨91, _⟩ => ⟨S128x128, .f32⟩
  | .hbm, ⟨92, _⟩ => ⟨S50000x128, .f32⟩
  | .hbm, ⟨93, _⟩ => ⟨S1x128, .f32⟩
  | .hbm, ⟨94, _⟩ => ⟨S50000x128, .f32⟩
  | .hbm, ⟨95, _⟩ => ⟨S50000x128, .f32⟩
  | .hbm, ⟨96, _⟩ => ⟨S_, .f32⟩
  | .hbm, ⟨97, _⟩ => ⟨S50000x128, .f32⟩
  | .hbm, ⟨98, _⟩ => ⟨S50000x128, .f32⟩
  | .hbm, ⟨99, _⟩ => ⟨S128x128, .f32⟩
  | .hbm, ⟨100, _⟩ => ⟨S50000x128, .f32⟩
  | .hbm, ⟨101, _⟩ => ⟨S1x128, .f32⟩
  | .hbm, ⟨102, _⟩ => ⟨S50000x128, .f32⟩
  | .hbm, ⟨103, _⟩ => ⟨S50000x128, .f32⟩
  | .hbm, ⟨104, _⟩ => ⟨S_, .f32⟩
  | .hbm, ⟨105, _⟩ => ⟨S50000x128, .f32⟩
  | .hbm, ⟨106, _⟩ => ⟨S50000x128, .f32⟩
  | .hbm, ⟨107, _⟩ => ⟨S128x64, .f32⟩
  | .hbm, ⟨108, _⟩ => ⟨S50000x64, .f32⟩
  | .hbm, ⟨109, _⟩ => ⟨S1x64, .f32⟩
  | .hbm, ⟨110, _⟩ => ⟨S50000x64, .f32⟩
  | .hbm, ⟨111, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst_1 : Ref sig .tc := ⟨.hbm, 28, rfl⟩
abbrev main_v10 : Ref sig .tc := ⟨.hbm, 29, rfl⟩
abbrev main_cst_2 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_3 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_call0_cst : Ref sig .tc := ⟨.hbm, 46, rfl⟩
abbrev main_call0_v0 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_call1_cst : Ref sig .tc := ⟨.hbm, 54, rfl⟩
abbrev main_call1_v0 : Ref sig .tc := ⟨.hbm, 55, rfl⟩
abbrev main_v31 : Ref sig .tc := ⟨.hbm, 56, rfl⟩
abbrev main_c_4 : Ref sig .tc := ⟨.hbm, 57, rfl⟩
abbrev main_v32 : Ref sig .tc := ⟨.hbm, 58, rfl⟩
abbrev main_v33 : Ref sig .tc := ⟨.hbm, 59, rfl⟩
abbrev main_c_5 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_6 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst_7 : Ref sig .tc := ⟨.hbm, 70, rfl⟩
abbrev main_v42 : Ref sig .tc := ⟨.hbm, 71, rfl⟩
abbrev main_cst_8 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_cst_9 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_call2_cst : Ref sig .tc := ⟨.hbm, 88, rfl⟩
abbrev main_call2_v0 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_call3_cst : Ref sig .tc := ⟨.hbm, 96, rfl⟩
abbrev main_call3_v0 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_call4_cst : Ref sig .tc := ⟨.hbm, 104, rfl⟩
abbrev main_call4_v0 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  transposes_S64x128_S128x64_1_0 : S64x128.Transposes [1, 0] S128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.RunFold.lean ====
/-
  The idealized kernel's run with its final memory NAMED: every weakly fair execution of @main terminates, nothing
  faulting, and every buffer that outlives a kernel region ends at the contents obtained by folding @main's
  segments from the launch memory — a stretch of host operations applies them, a kernel region replaces its
  arrays by what its grid's write-backs leave.  The argument-frame claim forgets all but the arguments at this
  last step; a value claim reads the result buffer there instead.
-/
import proofs.«154552_j9294309229066_1_alg».proof.Proof.GenP.KernelIdeal.Frame

set_option maxRecDepth 16384

noncomputable section

namespace Cert.KernelIdeal.RunFold

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, its last thread state read against the final memory: each buffer that is not scoped to a region
    holds the last boundary's contents. -/
theorem run_fold : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- The result buffer and the fifteen arguments after the run: the result at the fold's contents, the arguments
    as launched. -/
theorem run_result : θ_run defs (onTc (τ := τ) (main (F := F))) ⟨m, fun _ => 0, ρ⟩ (fun r => ∀ c : Dev nD,
      r.2.mem ((c.tc : Thread nD τ).loc main_v52) = W6 m ρ c (Proc.devRef .tc main_v52)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
      ⟨h c _ (mem_uc main_v52 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c)⟩)
    (run_fold m ρ)

end Cert.KernelIdeal.RunFold

end
-- ==== Proof.Spec.lean ====
/-
  The mathematics of one graph-isomorphism layer and of the final two-layer perceptron, index by index on the
  extended reals.

  A node's row `r` of a dense layer with weights `Wt` (already transposed: `Wt (k, j)` multiplies input feature
  `k` into output feature `j`) and bias `b` is `∑ k, X (r, k) · Wt (k, j) + b j`. A graph layer adds the
  aggregated neighbour features `A` to `X` first, applies two such dense layers, and clamps each below at zero;
  the final perceptron applies two dense layers with one clamp between them. Every entry of the result depends on
  ONE row of the input only: that is why a row block of the result is the same function of the row block.
-/
import Idealize.ShloMosaic.PureOps.Ideal
import Idealize.ShloMosaic.PureOps.Ideal.Laws
import Idealize.ShloMosaic.Lib.ValueIdx

noncomputable section

namespace Cert.GinSpec

open Idealize.ShloMosaic Idealize.ShloMosaic.ValueIdx

/-- An `a × b` array of extended reals. -/
abbrev Mat (a b : Nat) := (⟨2, ![a, b]⟩ : Shape).Idx → EReal
/-- A length-`a` array of extended reals. -/
abbrev Row (a : Nat) := (⟨1, ![a]⟩ : Shape).Idx → EReal

/-- The one row of a `1 × a` array, as a length-`a` array. -/
def rowOf {a : Nat} (v : Mat 1 a) : Row a := fun i => v (ix2 (0 : Fin 1) ⟨(i 0).val, (i 0).isLt⟩)

theorem rowOf_ix1 {a : Nat} (v : Mat 1 a) (k : Fin a) : rowOf v (ix1 k) = v (ix2 (0 : Fin 1) k) := rfl

/-- The clamp below at zero, the zero spelt as the float word both programs print. -/
def clamp (x : EReal) : EReal := max x (Ideal.ofBits .f32 0x00000000#32)

/-- One dense layer at row `r`, output feature `j`, from a row's features `x`. -/
def dense {d e : Nat} (x : Fin d → EReal) (Wt : Mat d e) (b : Row e) (j : Fin e) : EReal :=
  (∑ k : Fin d, x k * Wt (ix2 k j)) + b (ix1 j)

/-- A graph layer at node `r`, feature `j`: the node's own features plus the aggregate, two dense layers, each
    clamped. -/
def ginAt {n : Nat} (X A : Mat n 128) (W1t : Mat 128 128) (b1 : Row 128) (W2t : Mat 128 128) (b2 : Row 128)
    (r : Fin n) (j : Fin 128) : EReal :=
  clamp (dense (fun k => clamp (dense (fun l => X (ix2 r l) + A (ix2 r l)) W1t b1 k)) W2t b2 j)

/-- The final perceptron at node `r`, feature `j`: a clamped dense layer, then a dense layer. -/
def mlpAt {n : Nat} (X : Mat n 128) (W1t : Mat 128 128) (b1 : Row 128) (W2t : Mat 128 64) (b2 : Row 64)
    (r : Fin n) (j : Fin 64) : EReal :=
  dense (fun k => clamp (dense (fun l => X (ix2 r l)) W1t b1 k)) W2t b2 j

/-- The graph layer as a whole array. -/
def ginLayer {n : Nat} (X A : Mat n 128) (W1t : Mat 128 128) (b1 : Row 128) (W2t : Mat 128 128) (b2 : Row 128) : Mat n 128 :=
  fun i => ginAt X A W1t b1 W2t b2 ⟨(i 0).val, idx2_lt0 i⟩ ⟨(i 1).val, idx2_lt1 i⟩

/-- The final perceptron as a whole array. -/
def mlp {n : Nat} (X : Mat n 128) (W1t : Mat 128 128) (b1 : Row 128) (W2t : Mat 128 64) (b2 : Row 64) : Mat n 64 :=
  fun i => mlpAt X W1t b1 W2t b2 ⟨(i 0).val, idx2_lt0 i⟩ ⟨(i 1).val, idx2_lt1 i⟩

theorem ginLayer_ix2 {n : Nat} (X A : Mat n 128) (W1t : Mat 128 128) (b1 : Row 128) (W2t : Mat 128 128) (b2 : Row 128)
    (r : Fin n) (j : Fin 128) : ginLayer X A W1t b1 W2t b2 (ix2 r j) = ginAt X A W1t b1 W2t b2 r j := rfl

theorem mlp_ix2 {n : Nat} (X : Mat n 128) (W1t : Mat 128 128) (b1 : Row 128) (W2t : Mat 128 64) (b2 : Row 64)
    (r : Fin n) (j : Fin 64) : mlp X W1t b1 W2t b2 (ix2 r j) = mlpAt X W1t b1 W2t b2 r j := rfl

/-- A row block of a graph layer's input gives the row block of its output: if the block's rows are rows
    `base + y` of the whole arrays, the layer of the block at `y` is the layer of the whole at `base + y`. -/
theorem ginAt_block {n m : Nat} (X A : Mat n 128) (x a : Mat m 128) (W1t : Mat 128 128) (b1 : Row 128) (W2t : Mat 128 128) (b2 : Row 128)
    (r : Fin n) (y : Fin m) (hx : ∀ l, x (ix2 y l) = X (ix2 r l)) (ha : ∀ l, a (ix2 y l) = A (ix2 r l)) (j : Fin 128) :
    ginAt x a W1t b1 W2t b2 y j = ginAt X A W1t b1 W2t b2 r j := by
  unfold ginAt
  simp only [hx, ha]

/-- The same with every operand matched entry by entry: blocks of the features and the aggregate at row `y`
    against the whole arrays at row `r`, and weights and biases that agree entry by entry. -/
theorem ginAt_congr {n m : Nat} (X A : Mat n 128) (x a : Mat m 128) (W1t w1 : Mat 128 128) (b1 c1 : Row 128) (W2t w2 : Mat 128 128) (b2 c2 : Row 128)
    (r : Fin n) (y : Fin m) (j : Fin 128) (hx : ∀ l, x (ix2 y l) = X (ix2 r l)) (ha : ∀ l, a (ix2 y l) = A (ix2 r l))
    (hw1 : ∀ l k, w1 (ix2 l k) = W1t (ix2 l k)) (hc1 : ∀ k, c1 (ix1 k) = b1 (ix1 k))
    (hw2 : ∀ l k, w2 (ix2 l k) = W2t (ix2 l k)) (hc2 : ∀ k, c2 (ix1 k) = b2 (ix1 k)) :
    ginAt x a w1 c1 w2 c2 y j = ginAt X A W1t b1 W2t b2 r j := by
  unfold ginAt dense
  simp only [hx, ha, hw1, hc1, hw2, hc2]

theorem mlpAt_congr {n m : Nat} (X : Mat n 128) (x : Mat m 128) (W1t w1 : Mat 128 128) (b1 c1 : Row 128) (W2t w2 : Mat 128 64) (b2 c2 : Row 64)
    (r : Fin n) (y : Fin m) (j : Fin 64) (hx : ∀ l, x (ix2 y l) = X (ix2 r l))
    (hw1 : ∀ l k, w1 (ix2 l k) = W1t (ix2 l k)) (hc1 : ∀ k, c1 (ix1 k) = b1 (ix1 k))
    (hw2 : ∀ l k, w2 (ix2 l k) = W2t (ix2 l k)) (hc2 : ∀ k, c2 (ix1 k) = b2 (ix1 k)) :
    mlpAt x w1 c1 w2 c2 y j = mlpAt X W1t b1 W2t b2 r j := by
  unfold mlpAt dense
  simp only [hx, hw1, hc1, hw2, hc2]

theorem mlpAt_block {n m : Nat} (X : Mat n 128) (x : Mat m 128) (W1t : Mat 128 128) (b1 : Row 128) (W2t : Mat 128 64) (b2 : Row 64)
    (r : Fin n) (y : Fin m) (hx : ∀ l, x (ix2 y l) = X (ix2 r l)) (j : Fin 64) :
    mlpAt x W1t b1 W2t b2 y j = mlpAt X W1t b1 W2t b2 r j := by
  unfold mlpAt
  simp only [hx]

end Cert.GinSpec

end
-- ==== Proof.Payload.lean ====
/-
  What each kernel body stores, read at one entry.  A body loads a block of 2000 node rows and the two weight
  matrices and biases whole, and stores one value: for the two graph layers the clamped second dense layer of the
  clamped first dense layer of (features + aggregate); for the last region the second dense layer of the clamped
  first.  At the extended reals a change of float format is the identity and the matrix unit's product into a zero
  accumulator is the plain sum over the contracted feature, so the stored value at row `y`, column `j` is the
  specification's row function of the loaded blocks.
-/
import proofs.«154552_j9294309229066_1_alg».proof.Proof.Gen.KernelIdeal.Skeleton
import proofs.«154552_j9294309229066_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Cert.GinSpec
open Idealize.ShloMosaic Idealize.ShloMosaic.ValueIdx

theorem lhs128_0 (i : S2000x128.Idx) (q : dot_S2000x128_S128x128_S2000x128_1_0_0_1_n_n.contr.Idx) : (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem rhs128_1 (i : S2000x128.Idx) (q : dot_S2000x128_S128x128_S2000x128_1_0_0_1_n_n.contr.Idx) : (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The matrix unit's product of a 2000-row block with a `128 × 128` matrix into a zero accumulator, at row `y` and
    column `j`: the sum over the 128 contracted features of the block's row times the matrix's column. -/
theorem mm128 (L : FVec Ideal S2000x128 .bf16) (R : FVec Ideal S128x128 .bf16) (y : Fin 2000) (j : Fin 128) :
    matmul (F := Ideal) dot_S2000x128_S128x128_S2000x128_1_0_0_1_n_n none L R (constant S2000x128 .f32 0x00000000#32) (ix2 y j)
      = ∑ k : Fin 128, L (ix2 y k) * R (ix2 k j) := by
  simp only [matmul]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 y j) ((ValueIdx.contrEquiv1 dot_S2000x128_S128x128_S2000x128_1_0_0_1_n_n 128 rfl rfl).symm k) = ix2 y k := funext fun a => Fin.ext (by
    match a with
    | ⟨0, _⟩ => exact lhs128_0 _ _
    | ⟨1, _⟩ => exact (dot_S2000x128_S128x128_S2000x128_1_0_0_1_n_n.lhsIdx_val_of_single rfl _ _).trans hk)
  have er : dot_S2000x128_S128x128_S2000x128_1_0_0_1_n_n.rhsIdx (ix2 y j) ((ValueIdx.contrEquiv1 dot_S2000x128_S128x128_S2000x128_1_0_0_1_n_n 128 rfl rfl).symm k) = ix2 k j := funext fun a => Fin.ext (by
    match a with
    | ⟨0, _⟩ => exact (dot_S2000x128_S128x128_S2000x128_1_0_0_1_n_n.rhsIdx_val_of_single rfl _ _).trans hk
    | ⟨1, _⟩ => exact rhs128_1 _ _)
  rw [el, er]

theorem lhs64_0 (i : S2000x64.Idx) (q : dot_S2000x128_S128x64_S2000x64_1_0_0_1_n_n.contr.Idx) : (dot_S2000x128_S128x64_S2000x64_1_0_0_1_n_n.lhsIdx i q 0).val = (i 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
theorem rhs64_1 (i : S2000x64.Idx) (q : dot_S2000x128_S128x64_S2000x64_1_0_0_1_n_n.contr.Idx) : (dot_S2000x128_S128x64_S2000x64_1_0_0_1_n_n.rhsIdx i q 1).val = (i 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-- The matrix unit's product of a 2000-row block with a `128 × 64` matrix into a zero accumulator, at row `y` and
    column `j`: the sum over the 128 contracted features of the block's row times the matrix's column. -/
theorem mm64 (L : FVec Ideal S2000x128 .bf16) (R : FVec Ideal S128x64 .bf16) (y : Fin 2000) (j : Fin 64) :
    matmul (F := Ideal) dot_S2000x128_S128x64_S2000x64_1_0_0_1_n_n none L R (constant S2000x64 .f32 0x00000000#32) (ix2 y j)
      = ∑ k : Fin 128, L (ix2 y k) * R (ix2 k j) := by
  simp only [matmul]
  rw [Ideal.matmul_constant_zero_apply, ← Equiv.sum_comp (ValueIdx.contrEquiv1 dot_S2000x128_S128x64_S2000x64_1_0_0_1_n_n 128 rfl rfl).symm]
  refine Finset.sum_congr rfl fun k _ => ?_
  have hk := ValueIdx.contrEquiv1_symm_val dot_S2000x128_S128x64_S2000x64_1_0_0_1_n_n 128 rfl rfl k
  have el : dot_S2000x128_S128x64_S2000x64_1_0_0_1_n_n.lhsIdx (ix2 y j) ((ValueIdx.contrEquiv1 dot_S2000x128_S128x64_S2000x64_1_0_0_1_n_n 128 rfl rfl).symm k) = ix2 y k := funext fun a => Fin.ext (by
    match a with
    | ⟨0, _⟩ => exact lhs64_0 _ _
    | ⟨1, _⟩ => exact (dot_S2000x128_S128x64_S2000x64_1_0_0_1_n_n.lhsIdx_val_of_single rfl _ _).trans hk)
  have er : dot_S2000x128_S128x64_S2000x64_1_0_0_1_n_n.rhsIdx (ix2 y j) ((ValueIdx.contrEquiv1 dot_S2000x128_S128x64_S2000x64_1_0_0_1_n_n 128 rfl rfl).symm k) = ix2 k j := funext fun a => Fin.ext (by
    match a with
    | ⟨0, _⟩ => exact (dot_S2000x128_S128x64_S2000x64_1_0_0_1_n_n.rhsIdx_val_of_single rfl _ _).trans hk
    | ⟨1, _⟩ => exact rhs64_1 _ _)
  rw [el, er]

/-- Region 0's stored value at `(y, j)`. -/
theorem pay0_at (x0 x1 : Vec Ideal S2000x128 .f32) (x2 : Vec Ideal S128x128 .f32) (x3 : Vec Ideal S1x128 .f32)
    (x4 : Vec Ideal S128x128 .f32) (x5 : Vec Ideal S1x128 .f32) (y : Fin 2000) (j : Fin 128) :
    k0_pay1 (F := Ideal) x0 x1 x2 x3 x4 x5 (ix2 y j) = ginAt x0 x1 x2 (rowOf x3) x4 (rowOf x5) y j := by
  unfold k0_pay1
  simp only [maximumf_apply, addf_apply, mm128, truncf_apply, shapeCast_self, broadcastTo_1b_ab_apply, broadcast_apply,
    ginAt, dense, clamp, rowOf_ix1]
  rfl

/-- Region 1's stored value at `(y, j)`. -/
theorem pay1_at (x0 x1 : Vec Ideal S2000x128 .f32) (x2 : Vec Ideal S128x128 .f32) (x3 : Vec Ideal S1x128 .f32)
    (x4 : Vec Ideal S128x128 .f32) (x5 : Vec Ideal S1x128 .f32) (y : Fin 2000) (j : Fin 128) :
    k1_pay1 (F := Ideal) x0 x1 x2 x3 x4 x5 (ix2 y j) = ginAt x0 x1 x2 (rowOf x3) x4 (rowOf x5) y j := by
  unfold k1_pay1
  simp only [maximumf_apply, addf_apply, mm128, truncf_apply, shapeCast_self, broadcastTo_1b_ab_apply, broadcast_apply,
    ginAt, dense, clamp, rowOf_ix1]
  rfl

/-- Region 2's stored value at `(y, j)`. -/
theorem pay2_at (x0 : Vec Ideal S2000x128 .f32) (x1 : Vec Ideal S128x128 .f32) (x2 : Vec Ideal S1x128 .f32)
    (x3 : Vec Ideal S128x64 .f32) (x4 : Vec Ideal S1x64 .f32) (y : Fin 2000) (j : Fin 64) :
    k2_pay1 (F := Ideal) x0 x1 x2 x3 x4 (ix2 y j) = mlpAt x0 x1 (rowOf x2) x3 (rowOf x4) y j := by
  unfold k2_pay1
  simp only [maximumf_apply, addf_apply, mm128, mm64, truncf_apply, shapeCast_self, broadcastTo_1b_ab_apply, broadcast_apply,
    mlpAt, dense, clamp, rowOf_ix1]
  rfl

end Cert.KernelIdeal.Payload

end
-- ==== Proof.Blocks0.lean ====
/-
  From blocks to the array, region 0.  The grid has 25 points; point `t` stages rows `2000·t … 2000·t + 1999` of the
  node-feature arrays and the weight and bias arrays whole, and writes back the same rows of the result.  What it
  writes back is the body's stored value of the staged blocks, which is the layer's row function of those rows;
  so it is block `t` of ONE whole-array function, the 25 blocks cover the result array, and the array ends at that
  function of the arrays the region was entered with — whatever those are.
-/
import proofs.«154552_j9294309229066_1_alg».proof.Proof.GenP.KernelIdeal.Frame
import proofs.«154552_j9294309229066_1_alg».proof.Proof.Payload
import proofs.«154552_j9294309229066_1_alg».proof.Proof.Spec
import Idealize.ShloMosaic.Lib.Pipeline.Value
import Idealize.ShloMosaic.Lib.ValueIdx

set_option maxRecDepth 16384

noncomputable section

namespace Cert.KernelIdeal.Blocks0

open Cert.KernelIdeal Cert.KernelIdeal.Gen Cert.KernelIdeal.GenP Cert.KernelIdeal.Payload Cert.GinSpec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## Region 0 -/

/-- The printed index maps of region 0, decided once over its 25 grid points: the row-block windows move with the
    output's block along the rows, every other window stays at its one block. -/
theorem idx_facts0 : ∀ t : Fin cfg0.N, win0_0.index t (0 : Fin 2) = win0_6.index t (0 : Fin 2)
    ∧ win0_0.index t (1 : Fin 2) = 0
    ∧ win0_1.index t (0 : Fin 2) = win0_6.index t (0 : Fin 2)
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (1 : Fin 2) = 0
    ∧ win0_6.index t (0 : Fin 2) ≤ 24 :=
  (by decide +kernel : ∀ t : Fin grid0.N, _)

/-- Every one of the 25 row blocks is some grid point's. -/
theorem idx_onto0 : ∀ q : Fin 25, ∃ t : Fin cfg0.N, win0_6.index t = ![q.val, 0] :=
  (by decide +kernel : ∀ q : Fin 25, ∃ t : Fin grid0.N, win0_6.index t = ![q.val, 0])

/-- What grid point `t` writes back is block `t` of the layer of the arrays as the region finds them. -/
theorem flushed0 (c : Dev nD) (t : Fin cfg0.N) :
    (dat0 V c).flushed 6 t = ((cfg0.win 6).blk t).view.read (Elt Ideal) (ginLayer (V c main_arg0) (V c main_v18) (V c main_v19) (rowOf (V c main_v21)) (V c main_v20) (rowOf (V c main_v22))) := by
  show (cfg0.win 6).cut (grid0.coords t) ((dat0 V c).after 6 t) = _
  rw [after0_6]
  unfold out0_6
  rw [View.canon_unit_zero hz]
  simp only [View.ld_unit_zero (S := S2000x128) hz, View.ld_unit_zero (S := S128x128) hz, View.ld_unit_zero (S := S1x128) hz]
  obtain ⟨e0, e1, e2, e3, e4, e5, e6, e7, e8, e9, e10, e11, e12, e13⟩ := idx_facts0 t
  funext j
  obtain ⟨y, q, rfl⟩ : ∃ (y : Fin 2000) (q : Fin 128), j = ix2 y q := ⟨j 0, j 1, eq_ix2 (n0 := 2000) (n1 := 128) j⟩
  have hr : win0_6.index t (0 : Fin 2) * 2000 + y.val < 50000 := by have := y.isLt; omega
  let r : Fin 50000 := ⟨win0_6.index t (0 : Fin 2) * 2000 + y.val, hr⟩
  have hemb : ((cfg0.win 6).blk t).view.emb (ix2 y q) = ix2 r q := by
    refine funext fun a => Fin.ext ?_
    match a with
    | ⟨0, _⟩ => show win0_6.index t (0 : Fin 2) * 2000 + 1 * y.val = win0_6.index t (0 : Fin 2) * 2000 + y.val; omega
    | ⟨1, _⟩ => show win0_6.index t (1 : Fin 2) * 128 + 1 * q.val = q.val; omega
  show k0_pay1 (F := Ideal) (iblk0 V c 0 t) (iblk0 V c 1 t) (iblk0 V c 2 t) (iblk0 V c 3 t) (iblk0 V c 4 t) (iblk0 V c 5 t) (ix2 y q) = (ginLayer (V c main_arg0) (V c main_v18) (V c main_v19) (rowOf (V c main_v21)) (V c main_v20) (rowOf (V c main_v22))) (((cfg0.win 6).blk t).view.emb (ix2 y q))
  rw [hemb, ginLayer_ix2]
  refine (pay0_at (iblk0 V c 0 t) (iblk0 V c 1 t) (iblk0 V c 2 t) (iblk0 V c 3 t) (iblk0 V c 4 t) (iblk0 V c 5 t) y q).trans ?_
  refine ginAt_congr _ _ _ _ _ _ _ _ _ _ _ _ r y q ?_ ?_ ?_ ?_ ?_ ?_
  · intro l
    show V c main_arg0 (((cfg0.win 0).blk t).view.emb (ix2 y l)) = V c main_arg0 (ix2 r l)
    refine congrArg _ (funext fun a => Fin.ext ?_)
    match a with
    | ⟨0, _⟩ => show win0_0.index t (0 : Fin 2) * 2000 + 1 * y.val = win0_6.index t (0 : Fin 2) * 2000 + y.val; omega
    | ⟨1, _⟩ => show win0_0.index t (1 : Fin 2) * 128 + 1 * l.val = l.val; omega
  · intro l
    show V c main_v18 (((cfg0.win 1).blk t).view.emb (ix2 y l)) = V c main_v18 (ix2 r l)
    refine congrArg _ (funext fun a => Fin.ext ?_)
    match a with
    | ⟨0, _⟩ => show win0_1.index t (0 : Fin 2) * 2000 + 1 * y.val = win0_6.index t (0 : Fin 2) * 2000 + y.val; omega
    | ⟨1, _⟩ => show win0_1.index t (1 : Fin 2) * 128 + 1 * l.val = l.val; omega
  · intro l k
    show V c main_v19 (((cfg0.win 2).blk t).view.emb (ix2 l k)) = V c main_v19 (ix2 l k)
    refine congrArg _ (funext fun a => Fin.ext ?_)
    match a with
    | ⟨0, _⟩ => show win0_2.index t (0 : Fin 2) * 128 + 1 * l.val = l.val; omega
    | ⟨1, _⟩ => show win0_2.index t (1 : Fin 2) * 128 + 1 * k.val = k.val; omega
  · intro k
    show V c main_v21 (((cfg0.win 3).blk t).view.emb (ix2 (0 : Fin 1) k)) = V c main_v21 (ix2 (0 : Fin 1) k)
    refine congrArg _ (funext fun a => Fin.ext ?_)
    match a with
    | ⟨0, _⟩ => show win0_3.index t (0 : Fin 2) * 1 + 1 * 0 = 0; omega
    | ⟨1, _⟩ => show win0_3.index t (1 : Fin 2) * 128 + 1 * k.val = k.val; omega
  · intro l k
    show V c main_v20 (((cfg0.win 4).blk t).view.emb (ix2 l k)) = V c main_v20 (ix2 l k)
    refine congrArg _ (funext fun a => Fin.ext ?_)
    match a with
    | ⟨0, _⟩ => show win0_4.index t (0 : Fin 2) * 128 + 1 * l.val = l.val; omega
    | ⟨1, _⟩ => show win0_4.index t (1 : Fin 2) * 128 + 1 * k.val = k.val; omega
  · intro k
    show V c main_v22 (((cfg0.win 5).blk t).view.emb (ix2 (0 : Fin 1) k)) = V c main_v22 (ix2 (0 : Fin 1) k)
    refine congrArg _ (funext fun a => Fin.ext ?_)
    match a with
    | ⟨0, _⟩ => show win0_5.index t (0 : Fin 2) * 1 + 1 * 0 = 0; omega
    | ⟨1, _⟩ => show win0_5.index t (1 : Fin 2) * 128 + 1 * k.val = k.val; omega

/-- An index of the result array is in point `t`'s block iff each coordinate is in the block's range. -/
theorem mem_blk0 (t : Fin cfg0.N) (i : S50000x128.Idx) :
    i ∈ ((cfg0.win 6).blk t).view.set ↔ ∀ a : Fin 2, win0_6.index t a * S2000x128.size a ≤ (i a).val ∧ (i a).val < win0_6.index t a * S2000x128.size a + S2000x128.size a := by
  show i ∈ ((View.whole main_v23).slice (win0_6.rect t)).set ↔ _
  rw [View.set_slice_whole, Rect.mem_set_unit]
  exact Iff.rfl

/-- The 25 row blocks cover the result array: row `r` is in block `r / 2000`. -/
theorem cover0 (i : S50000x128.Idx) : ∃ t : Fin cfg0.N, (cfg0.win 6).flush t = true ∧ i ∈ ((cfg0.win 6).blk t).view.set := by
  have hi0 : (i 0).val < 50000 := (i 0).isLt
  have hi1 : (i 1).val < 128 := (i 1).isLt
  obtain ⟨t, ht⟩ := idx_onto0 ⟨(i 0).val / 2000, by omega⟩
  have q0 : win0_6.index t (0 : Fin 2) = (i 0).val / 2000 := congrFun ht 0
  have q1 : win0_6.index t (1 : Fin 2) = 0 := congrFun ht 1
  refine ⟨t, flush0_6 t, ?_⟩
  rw [mem_blk0]
  intro a
  match a with
  | ⟨0, _⟩ => show win0_6.index t (0 : Fin 2) * 2000 ≤ (i 0).val ∧ (i 0).val < win0_6.index t (0 : Fin 2) * 2000 + 2000; omega
  | ⟨1, _⟩ => show win0_6.index t (1 : Fin 2) * 128 ≤ (i 1).val ∧ (i 1).val < win0_6.index t (1 : Fin 2) * 128 + 128; omega

/-- The result array of region 0 after its grid: the layer of the arrays as the region finds them. -/
theorem array0 (c : Dev nD) : (dat0 V c).arrAt 6 cfg0.N = ginLayer (V c main_arg0) (V c main_v18) (V c main_v19) (rowOf (V c main_v21)) (V c main_v20) (rowOf (V c main_v22)) :=
  (dat0 V c).arrAt_eq_of_cover 6 _ (fun t _ => flushed0 V c t) (cover0)

end Cert.KernelIdeal.Blocks0

end
-- ==== Proof.Blocks1.lean ====
/-
  From blocks to the array, region 1.  The grid has 25 points; point `t` stages rows `2000·t … 2000·t + 1999` of the
  node-feature arrays and the weight and bias arrays whole, and writes back the same rows of the result.  What it
  writes back is the body's stored value of the staged blocks, which is the layer's row function of those rows;
  so it is block `t` of ONE whole-array function, the 25 blocks cover the result array, and the array ends at that
  function of the arrays the region was entered with — whatever those are.
-/
import proofs.«154552_j9294309229066_1_alg».proof.Proof.GenP.KernelIdeal.Frame
import proofs.«154552_j9294309229066_1_alg».proof.Proof.Payload
import proofs.«154552_j9294309229066_1_alg».proof.Proof.Spec
import Idealize.ShloMosaic.Lib.Pipeline.Value
import Idealize.ShloMosaic.Lib.ValueIdx

set_option maxRecDepth 16384

noncomputable section

namespace Cert.KernelIdeal.Blocks1

open Cert.KernelIdeal Cert.KernelIdeal.Gen Cert.KernelIdeal.GenP Cert.KernelIdeal.Payload Cert.GinSpec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## Region 1 -/

/-- The printed index maps of region 1, decided once over its 25 grid points: the row-block windows move with the
    output's block along the rows, every other window stays at its one block. -/
theorem idx_facts1 : ∀ t : Fin cfg1.N, win1_0.index t (0 : Fin 2) = win1_6.index t (0 : Fin 2)
    ∧ win1_0.index t (1 : Fin 2) = 0
    ∧ win1_1.index t (0 : Fin 2) = win1_6.index t (0 : Fin 2)
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (1 : Fin 2) = 0
    ∧ win1_6.index t (0 : Fin 2) ≤ 24 :=
  (by decide +kernel : ∀ t : Fin grid1.N, _)

/-- Every one of the 25 row blocks is some grid point's. -/
theorem idx_onto1 : ∀ q : Fin 25, ∃ t : Fin cfg1.N, win1_6.index t = ![q.val, 0] :=
  (by decide +kernel : ∀ q : Fin 25, ∃ t : Fin grid1.N, win1_6.index t = ![q.val, 0])

/-- What grid point `t` writes back is block `t` of the layer of the arrays as the region finds them. -/
theorem flushed1 (c : Dev nD) (t : Fin cfg1.N) :
    (dat1 V c).flushed 6 t = ((cfg1.win 6).blk t).view.read (Elt Ideal) (ginLayer (V c main_v23) (V c main_v42) (V c main_v43) (rowOf (V c main_v45)) (V c main_v44) (rowOf (V c main_v46))) := by
  show (cfg1.win 6).cut (grid1.coords t) ((dat1 V c).after 6 t) = _
  rw [after1_6]
  unfold out1_6
  rw [View.canon_unit_zero hz]
  simp only [View.ld_unit_zero (S := S2000x128) hz, View.ld_unit_zero (S := S128x128) hz, View.ld_unit_zero (S := S1x128) hz]
  obtain ⟨e0, e1, e2, e3, e4, e5, e6, e7, e8, e9, e10, e11, e12, e13⟩ := idx_facts1 t
  funext j
  obtain ⟨y, q, rfl⟩ : ∃ (y : Fin 2000) (q : Fin 128), j = ix2 y q := ⟨j 0, j 1, eq_ix2 (n0 := 2000) (n1 := 128) j⟩
  have hr : win1_6.index t (0 : Fin 2) * 2000 + y.val < 50000 := by have := y.isLt; omega
  let r : Fin 50000 := ⟨win1_6.index t (0 : Fin 2) * 2000 + y.val, hr⟩
  have hemb : ((cfg1.win 6).blk t).view.emb (ix2 y q) = ix2 r q := by
    refine funext fun a => Fin.ext ?_
    match a with
    | ⟨0, _⟩ => show win1_6.index t (0 : Fin 2) * 2000 + 1 * y.val = win1_6.index t (0 : Fin 2) * 2000 + y.val; omega
    | ⟨1, _⟩ => show win1_6.index t (1 : Fin 2) * 128 + 1 * q.val = q.val; omega
  show k1_pay1 (F := Ideal) (iblk1 V c 0 t) (iblk1 V c 1 t) (iblk1 V c 2 t) (iblk1 V c 3 t) (iblk1 V c 4 t) (iblk1 V c 5 t) (ix2 y q) = (ginLayer (V c main_v23) (V c main_v42) (V c main_v43) (rowOf (V c main_v45)) (V c main_v44) (rowOf (V c main_v46))) (((cfg1.win 6).blk t).view.emb (ix2 y q))
  rw [hemb, ginLayer_ix2]
  refine (pay1_at (iblk1 V c 0 t) (iblk1 V c 1 t) (iblk1 V c 2 t) (iblk1 V c 3 t) (iblk1 V c 4 t) (iblk1 V c 5 t) y q).trans ?_
  refine ginAt_congr _ _ _ _ _ _ _ _ _ _ _ _ r y q ?_ ?_ ?_ ?_ ?_ ?_
  · intro l
    show V c main_v23 (((cfg1.win 0).blk t).view.emb (ix2 y l)) = V c main_v23 (ix2 r l)
    refine congrArg _ (funext fun a => Fin.ext ?_)
    match a with
    | ⟨0, _⟩ => show win1_0.index t (0 : Fin 2) * 2000 + 1 * y.val = win1_6.index t (0 : Fin 2) * 2000 + y.val; omega
    | ⟨1, _⟩ => show win1_0.index t (1 : Fin 2) * 128 + 1 * l.val = l.val; omega
  · intro l
    show V c main_v42 (((cfg1.win 1).blk t).view.emb (ix2 y l)) = V c main_v42 (ix2 r l)
    refine congrArg _ (funext fun a => Fin.ext ?_)
    match a with
    | ⟨0, _⟩ => show win1_1.index t (0 : Fin 2) * 2000 + 1 * y.val = win1_6.index t (0 : Fin 2) * 2000 + y.val; omega
    | ⟨1, _⟩ => show win1_1.index t (1 : Fin 2) * 128 + 1 * l.val = l.val; omega
  · intro l k
    show V c main_v43 (((cfg1.win 2).blk t).view.emb (ix2 l k)) = V c main_v43 (ix2 l k)
    refine congrArg _ (funext fun a => Fin.ext ?_)
    match a with
    | ⟨0, _⟩ => show win1_2.index t (0 : Fin 2) * 128 + 1 * l.val = l.val; omega
    | ⟨1, _⟩ => show win1_2.index t (1 : Fin 2) * 128 + 1 * k.val = k.val; omega
  · intro k
    show V c main_v45 (((cfg1.win 3).blk t).view.emb (ix2 (0 : Fin 1) k)) = V c main_v45 (ix2 (0 : Fin 1) k)
    refine congrArg _ (funext fun a => Fin.ext ?_)
    match a with
    | ⟨0, _⟩ => show win1_3.index t (0 : Fin 2) * 1 + 1 * 0 = 0; omega
    | ⟨1, _⟩ => show win1_3.index t (1 : Fin 2) * 128 + 1 * k.val = k.val; omega
  · intro l k
    show V c main_v44 (((cfg1.win 4).blk t).view.emb (ix2 l k)) = V c main_v44 (ix2 l k)
    refine congrArg _ (funext fun a => Fin.ext ?_)
    match a with
    | ⟨0, _⟩ => show win1_4.index t (0 : Fin 2) * 128 + 1 * l.val = l.val; omega
    | ⟨1, _⟩ => show win1_4.index t (1 : Fin 2) * 128 + 1 * k.val = k.val; omega
  · intro k
    show V c main_v46 (((cfg1.win 5).blk t).view.emb (ix2 (0 : Fin 1) k)) = V c main_v46 (ix2 (0 : Fin 1) k)
    refine congrArg _ (funext fun a => Fin.ext ?_)
    match a with
    | ⟨0, _⟩ => show win1_5.index t (0 : Fin 2) * 1 + 1 * 0 = 0; omega
    | ⟨1, _⟩ => show win1_5.index t (1 : Fin 2) * 128 + 1 * k.val = k.val; omega

/-- An index of the result array is in point `t`'s block iff each coordinate is in the block's range. -/
theorem mem_blk1 (t : Fin cfg1.N) (i : S50000x128.Idx) :
    i ∈ ((cfg1.win 6).blk t).view.set ↔ ∀ a : Fin 2, win1_6.index t a * S2000x128.size a ≤ (i a).val ∧ (i a).val < win1_6.index t a * S2000x128.size a + S2000x128.size a := by
  show i ∈ ((View.whole main_v47).slice (win1_6.rect t)).set ↔ _
  rw [View.set_slice_whole, Rect.mem_set_unit]
  exact Iff.rfl

/-- The 25 row blocks cover the result array: row `r` is in block `r / 2000`. -/
theorem cover1 (i : S50000x128.Idx) : ∃ t : Fin cfg1.N, (cfg1.win 6).flush t = true ∧ i ∈ ((cfg1.win 6).blk t).view.set := by
  have hi0 : (i 0).val < 50000 := (i 0).isLt
  have hi1 : (i 1).val < 128 := (i 1).isLt
  obtain ⟨t, ht⟩ := idx_onto1 ⟨(i 0).val / 2000, by omega⟩
  have q0 : win1_6.index t (0 : Fin 2) = (i 0).val / 2000 := congrFun ht 0
  have q1 : win1_6.index t (1 : Fin 2) = 0 := congrFun ht 1
  refine ⟨t, flush1_6 t, ?_⟩
  rw [mem_blk1]
  intro a
  match a with
  | ⟨0, _⟩ => show win1_6.index t (0 : Fin 2) * 2000 ≤ (i 0).val ∧ (i 0).val < win1_6.index t (0 : Fin 2) * 2000 + 2000; omega
  | ⟨1, _⟩ => show win1_6.index t (1 : Fin 2) * 128 ≤ (i 1).val ∧ (i 1).val < win1_6.index t (1 : Fin 2) * 128 + 128; omega

/-- The result array of region 1 after its grid: the layer of the arrays as the region finds them. -/
theorem array1 (c : Dev nD) : (dat1 V c).arrAt 6 cfg1.N = ginLayer (V c main_v23) (V c main_v42) (V c main_v43) (rowOf (V c main_v45)) (V c main_v44) (rowOf (V c main_v46)) :=
  (dat1 V c).arrAt_eq_of_cover 6 _ (fun t _ => flushed1 V c t) (cover1)

end Cert.KernelIdeal.Blocks1

end
-- ==== Proof.Blocks2.lean ====
/-
  From blocks to the array, region 2.  The grid has 25 points; point `t` stages rows `2000·t … 2000·t + 1999` of the
  node-feature arrays and the weight and bias arrays whole, and writes back the same rows of the result.  What it
  writes back is the body's stored value of the staged blocks, which is the layer's row function of those rows;
  so it is block `t` of ONE whole-array function, the 25 blocks cover the result array, and the array ends at that
  function of the arrays the region was entered with — whatever those are.
-/
import proofs.«154552_j9294309229066_1_alg».proof.Proof.GenP.KernelIdeal.Frame
import proofs.«154552_j9294309229066_1_alg».proof.Proof.Payload
import proofs.«154552_j9294309229066_1_alg».proof.Proof.Spec
import Idealize.ShloMosaic.Lib.Pipeline.Value
import Idealize.ShloMosaic.Lib.ValueIdx

set_option maxRecDepth 16384

noncomputable section

namespace Cert.KernelIdeal.Blocks2

open Cert.KernelIdeal Cert.KernelIdeal.Gen Cert.KernelIdeal.GenP Cert.KernelIdeal.Payload Cert.GinSpec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## Region 2 -/

/-- The printed index maps of region 2, decided once over its 25 grid points: the row-block windows move with the
    output's block along the rows, every other window stays at its one block. -/
theorem idx_facts2 : ∀ t : Fin cfg2.N, win2_0.index t (0 : Fin 2) = win2_5.index t (0 : Fin 2)
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (1 : Fin 2) = 0
    ∧ win2_5.index t (0 : Fin 2) ≤ 24 :=
  (by decide +kernel : ∀ t : Fin grid2.N, _)

/-- Every one of the 25 row blocks is some grid point's. -/
theorem idx_onto2 : ∀ q : Fin 25, ∃ t : Fin cfg2.N, win2_5.index t = ![q.val, 0] :=
  (by decide +kernel : ∀ q : Fin 25, ∃ t : Fin grid2.N, win2_5.index t = ![q.val, 0])

/-- What grid point `t` writes back is block `t` of the layer of the arrays as the region finds them. -/
theorem flushed2 (c : Dev nD) (t : Fin cfg2.N) :
    (dat2 V c).flushed 5 t = ((cfg2.win 5).blk t).view.read (Elt Ideal) (mlp (V c main_v47) (V c main_v48) (rowOf (V c main_v50)) (V c main_v49) (rowOf (V c main_v51))) := by
  show (cfg2.win 5).cut (grid2.coords t) ((dat2 V c).after 5 t) = _
  rw [after2_5]
  unfold out2_5
  rw [View.canon_unit_zero hz]
  simp only [View.ld_unit_zero (S := S2000x128) hz, View.ld_unit_zero (S := S128x128) hz, View.ld_unit_zero (S := S1x128) hz, View.ld_unit_zero (S := S128x64) hz, View.ld_unit_zero (S := S1x64) hz]
  obtain ⟨e0, e1, e2, e3, e4, e5, e6, e7, e8, e9, e10, e11⟩ := idx_facts2 t
  funext j
  obtain ⟨y, q, rfl⟩ : ∃ (y : Fin 2000) (q : Fin 64), j = ix2 y q := ⟨j 0, j 1, eq_ix2 (n0 := 2000) (n1 := 64) j⟩
  have hr : win2_5.index t (0 : Fin 2) * 2000 + y.val < 50000 := by have := y.isLt; omega
  let r : Fin 50000 := ⟨win2_5.index t (0 : Fin 2) * 2000 + y.val, hr⟩
  have hemb : ((cfg2.win 5).blk t).view.emb (ix2 y q) = ix2 r q := by
    refine funext fun a => Fin.ext ?_
    match a with
    | ⟨0, _⟩ => show win2_5.index t (0 : Fin 2) * 2000 + 1 * y.val = win2_5.index t (0 : Fin 2) * 2000 + y.val; omega
    | ⟨1, _⟩ => show win2_5.index t (1 : Fin 2) * 64 + 1 * q.val = q.val; omega
  show k2_pay1 (F := Ideal) (iblk2 V c 0 t) (iblk2 V c 1 t) (iblk2 V c 2 t) (iblk2 V c 3 t) (iblk2 V c 4 t) (ix2 y q) = (mlp (V c main_v47) (V c main_v48) (rowOf (V c main_v50)) (V c main_v49) (rowOf (V c main_v51))) (((cfg2.win 5).blk t).view.emb (ix2 y q))
  rw [hemb, mlp_ix2]
  refine (pay2_at (iblk2 V c 0 t) (iblk2 V c 1 t) (iblk2 V c 2 t) (iblk2 V c 3 t) (iblk2 V c 4 t) y q).trans ?_
  refine mlpAt_congr _ _ _ _ _ _ _ _ _ _ r y q ?_ ?_ ?_ ?_ ?_
  · intro l
    show V c main_v47 (((cfg2.win 0).blk t).view.emb (ix2 y l)) = V c main_v47 (ix2 r l)
    refine congrArg _ (funext fun a => Fin.ext ?_)
    match a with
    | ⟨0, _⟩ => show win2_0.index t (0 : Fin 2) * 2000 + 1 * y.val = win2_5.index t (0 : Fin 2) * 2000 + y.val; omega
    | ⟨1, _⟩ => show win2_0.index t (1 : Fin 2) * 128 + 1 * l.val = l.val; omega
  · intro l k
    show V c main_v48 (((cfg2.win 1).blk t).view.emb (ix2 l k)) = V c main_v48 (ix2 l k)
    refine congrArg _ (funext fun a => Fin.ext ?_)
    match a with
    | ⟨0, _⟩ => show win2_1.index t (0 : Fin 2) * 128 + 1 * l.val = l.val; omega
    | ⟨1, _⟩ => show win2_1.index t (1 : Fin 2) * 128 + 1 * k.val = k.val; omega
  · intro k
    show V c main_v50 (((cfg2.win 2).blk t).view.emb (ix2 (0 : Fin 1) k)) = V c main_v50 (ix2 (0 : Fin 1) k)
    refine congrArg _ (funext fun a => Fin.ext ?_)
    match a with
    | ⟨0, _⟩ => show win2_2.index t (0 : Fin 2) * 1 + 1 * 0 = 0; omega
    | ⟨1, _⟩ => show win2_2.index t (1 : Fin 2) * 128 + 1 * k.val = k.val; omega
  · intro l k
    show V c main_v49 (((cfg2.win 3).blk t).view.emb (ix2 l k)) = V c main_v49 (ix2 l k)
    refine congrArg _ (funext fun a => Fin.ext ?_)
    match a with
    | ⟨0, _⟩ => show win2_3.index t (0 : Fin 2) * 128 + 1 * l.val = l.val; omega
    | ⟨1, _⟩ => show win2_3.index t (1 : Fin 2) * 64 + 1 * k.val = k.val; omega
  · intro k
    show V c main_v51 (((cfg2.win 4).blk t).view.emb (ix2 (0 : Fin 1) k)) = V c main_v51 (ix2 (0 : Fin 1) k)
    refine congrArg _ (funext fun a => Fin.ext ?_)
    match a with
    | ⟨0, _⟩ => show win2_4.index t (0 : Fin 2) * 1 + 1 * 0 = 0; omega
    | ⟨1, _⟩ => show win2_4.index t (1 : Fin 2) * 64 + 1 * k.val = k.val; omega

/-- An index of the result array is in point `t`'s block iff each coordinate is in the block's range. -/
theorem mem_blk2 (t : Fin cfg2.N) (i : S50000x64.Idx) :
    i ∈ ((cfg2.win 5).blk t).view.set ↔ ∀ a : Fin 2, win2_5.index t a * S2000x64.size a ≤ (i a).val ∧ (i a).val < win2_5.index t a * S2000x64.size a + S2000x64.size a := by
  show i ∈ ((View.whole main_v52).slice (win2_5.rect t)).set ↔ _
  rw [View.set_slice_whole, Rect.mem_set_unit]
  exact Iff.rfl

/-- The 25 row blocks cover the result array: row `r` is in block `r / 2000`. -/
theorem cover2 (i : S50000x64.Idx) : ∃ t : Fin cfg2.N, (cfg2.win 5).flush t = true ∧ i ∈ ((cfg2.win 5).blk t).view.set := by
  have hi0 : (i 0).val < 50000 := (i 0).isLt
  have hi1 : (i 1).val < 64 := (i 1).isLt
  obtain ⟨t, ht⟩ := idx_onto2 ⟨(i 0).val / 2000, by omega⟩
  have q0 : win2_5.index t (0 : Fin 2) = (i 0).val / 2000 := congrFun ht 0
  have q1 : win2_5.index t (1 : Fin 2) = 0 := congrFun ht 1
  refine ⟨t, flush2_5 t, ?_⟩
  rw [mem_blk2]
  intro a
  match a with
  | ⟨0, _⟩ => show win2_5.index t (0 : Fin 2) * 2000 ≤ (i 0).val ∧ (i 0).val < win2_5.index t (0 : Fin 2) * 2000 + 2000; omega
  | ⟨1, _⟩ => show win2_5.index t (1 : Fin 2) * 64 ≤ (i 1).val ∧ (i 1).val < win2_5.index t (1 : Fin 2) * 64 + 64; omega

/-- The result array of region 2 after its grid: the layer of the arrays as the region finds them. -/
theorem array2 (c : Dev nD) : (dat2 V c).arrAt 5 cfg2.N = mlp (V c main_v47) (V c main_v48) (rowOf (V c main_v50)) (V c main_v49) (rowOf (V c main_v51)) :=
  (dat2 V c).arrAt_eq_of_cover 5 _ (fun t _ => flushed2 V c t) (cover2)

end Cert.KernelIdeal.Blocks2

end
-- ==== Proof.RefRead.lean ====
/-
  The reference, one layer at a time.  Read at an index, each of its three layers is the specification's function
  of the layer before: a dense layer is the sum over the contracted feature of the input row against a column of
  the TRANSPOSED weight array (kept whole, as the operation that transposes it leaves it) plus the bias entry, the
  clamp is the maximum with the zero word, and the residual of a graph layer adds the aggregate entry by entry.
  The aggregation itself — gather the source rows, add them into their destination rows, divide by the clamped
  in-degree — is never opened: it is one function `agg` of the features and the two index arrays.
-/
import proofs.«154552_j9294309229066_1_alg».proof.Proof.Gen.ReferenceIdeal.Read
import proofs.«154552_j9294309229066_1_alg».proof.Proof.Spec

set_option maxRecDepth 16384

noncomputable section

namespace Cert.ReferenceIdeal.Layers

open Cert.ReferenceIdeal Cert.ReferenceIdeal.Gen Cert.ReferenceIdeal.Read Cert.GinSpec
open Idealize.ShloMosaic Idealize.ShloMosaic.ValueIdx

/-- The mean of the in-neighbours' feature rows: the source rows gathered (a negative source index wrapped by
    50000), added into their destination rows, divided by the in-degree clamped below at one. -/
def agg (X : (⟨S50000x128, .f32⟩ : BufTy).Contents (Elt Ideal)) (s d : (⟨S800000, .i32⟩ : BufTy).Contents (Elt Ideal)) :
    (⟨S50000x128, .f32⟩ : BufTy).Contents (Elt Ideal) :=
  Host.divf (F := Ideal) (Host.scatterAdd (F := Ideal) scatter_S50000x128_S800000x1_S800000x128_1_0_0_1 (broadcastInDim S50000x128 ![] bcast_S_S50000x128 (constant (F := Ideal) S_ .f32 0x00000000#32)) (broadcastInDim S800000x1 ![0] bcast_S800000_S800000x1_0 d) (Host.gather gather_S50000x128_S800000x1_S800000x128_1_0_n_n_0_1_1128 X (broadcastInDim S800000x1 ![0] bcast_S800000_S800000x1_0 (select (cmpi .slt s (broadcastInDim S800000 ![] bcast_S_S800000 (constantI S_ 32 0#32))) (addi s (broadcastInDim S800000 ![] bcast_S_S800000 (constantI S_ 32 50000#32))) s)))) (broadcastInDim S50000x128 ![0, 1] bcast_S50000x1_S50000x128_0_1 (broadcastInDim S50000x1 ![0] bcast_S50000_S50000x1_0 (maximumf (F := Ideal) (Host.scatterAdd (F := Ideal) scatter_S50000_S800000x1_S800000_n_0_0_1 (broadcastInDim S50000 ![] bcast_S_S50000 (constant (F := Ideal) S_ .f32 0x00000000#32)) (broadcastInDim S800000x1 ![0] bcast_S800000_S800000x1_0 d) (broadcastInDim S800000 ![] bcast_S_S800000 (constant (F := Ideal) S_ .f32 0x3F800000#32))) (broadcastInDim S50000 ![] bcast_S_S50000 (constant (F := Ideal) S_ .f32 0x3F800000#32)))))

theorem agg1 (x0 : (⟨S50000x128, .f32⟩ : BufTy).Contents (Elt Ideal)) (x1 x2 : (⟨S800000, .i32⟩ : BufTy).Contents (Elt Ideal)) :
    val_main_v18 (F := Ideal) x0 x1 x2 = agg x0 x1 x2 := rfl

theorem agg2 (x0 : (⟨S50000x128, .f32⟩ : BufTy).Contents (Elt Ideal)) (x1 x2 : (⟨S800000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal)) :
    val_main_v50 (F := Ideal) x0 x1 x2 x3 x4 x5 x6 = agg (val_main_v31 (F := Ideal) x0 x1 x2 x3 x4 x5 x6) x1 x2 := rfl

/-! ## The index equations: the generated index functions at `(r, j)` are the evident coordinates -/

theorem lidx21 (r : Fin 50000) (j : Fin 128) (k : Fin 128) : lidx_main_v21 (ix2 r j) k = ix2 r k := funext fun a => Fin.ext (by match a with | ⟨0, _⟩ => rfl | ⟨1, _⟩ => rfl)
theorem ridx21 (r : Fin 50000) (j : Fin 128) (k : Fin 128) : ridx_main_v21 (ix2 r j) k = ix2 k j := funext fun a => Fin.ext (by match a with | ⟨0, _⟩ => rfl | ⟨1, _⟩ => rfl)
theorem lidx27 (r : Fin 50000) (j : Fin 128) (k : Fin 128) : lidx_main_v27 (ix2 r j) k = ix2 r k := funext fun a => Fin.ext (by match a with | ⟨0, _⟩ => rfl | ⟨1, _⟩ => rfl)
theorem ridx27 (r : Fin 50000) (j : Fin 128) (k : Fin 128) : ridx_main_v27 (ix2 r j) k = ix2 k j := funext fun a => Fin.ext (by match a with | ⟨0, _⟩ => rfl | ⟨1, _⟩ => rfl)
theorem lidx53 (r : Fin 50000) (j : Fin 128) (k : Fin 128) : lidx_main_v53 (ix2 r j) k = ix2 r k := funext fun a => Fin.ext (by match a with | ⟨0, _⟩ => rfl | ⟨1, _⟩ => rfl)
theorem ridx53 (r : Fin 50000) (j : Fin 128) (k : Fin 128) : ridx_main_v53 (ix2 r j) k = ix2 k j := funext fun a => Fin.ext (by match a with | ⟨0, _⟩ => rfl | ⟨1, _⟩ => rfl)
theorem lidx59 (r : Fin 50000) (j : Fin 128) (k : Fin 128) : lidx_main_v59 (ix2 r j) k = ix2 r k := funext fun a => Fin.ext (by match a with | ⟨0, _⟩ => rfl | ⟨1, _⟩ => rfl)
theorem ridx59 (r : Fin 50000) (j : Fin 128) (k : Fin 128) : ridx_main_v59 (ix2 r j) k = ix2 k j := funext fun a => Fin.ext (by match a with | ⟨0, _⟩ => rfl | ⟨1, _⟩ => rfl)
theorem lidx65 (r : Fin 50000) (j : Fin 128) (k : Fin 128) : lidx_main_v65 (ix2 r j) k = ix2 r k := funext fun a => Fin.ext (by match a with | ⟨0, _⟩ => rfl | ⟨1, _⟩ => rfl)
theorem ridx65 (r : Fin 50000) (j : Fin 128) (k : Fin 128) : ridx_main_v65 (ix2 r j) k = ix2 k j := funext fun a => Fin.ext (by match a with | ⟨0, _⟩ => rfl | ⟨1, _⟩ => rfl)
theorem lidx71 (r : Fin 50000) (j : Fin 64) (k : Fin 128) : lidx_main_v71 (ix2 r j) k = ix2 r k := funext fun a => Fin.ext (by match a with | ⟨0, _⟩ => rfl | ⟨1, _⟩ => rfl)
theorem ridx71 (r : Fin 50000) (j : Fin 64) (k : Fin 128) : ridx_main_v71 (ix2 r j) k = ix2 k j := funext fun a => Fin.ext (by match a with | ⟨0, _⟩ => rfl | ⟨1, _⟩ => rfl)
theorem bias23 (r : Fin 50000) (j : Fin 128) : idx_main_v22 (idx_main_v23 (ix2 r j)) = ix1 j := funext fun a => Fin.ext (by match a with | ⟨0, _⟩ => rfl)
theorem bias29 (r : Fin 50000) (j : Fin 128) : idx_main_v28 (idx_main_v29 (ix2 r j)) = ix1 j := funext fun a => Fin.ext (by match a with | ⟨0, _⟩ => rfl)
theorem bias55 (r : Fin 50000) (j : Fin 128) : idx_main_v54 (idx_main_v55 (ix2 r j)) = ix1 j := funext fun a => Fin.ext (by match a with | ⟨0, _⟩ => rfl)
theorem bias61 (r : Fin 50000) (j : Fin 128) : idx_main_v60 (idx_main_v61 (ix2 r j)) = ix1 j := funext fun a => Fin.ext (by match a with | ⟨0, _⟩ => rfl)
theorem bias67 (r : Fin 50000) (j : Fin 128) : idx_main_v66 (idx_main_v67 (ix2 r j)) = ix1 j := funext fun a => Fin.ext (by match a with | ⟨0, _⟩ => rfl)
theorem bias73 (r : Fin 50000) (j : Fin 64) : idx_main_v72 (idx_main_v73 (ix2 r j)) = ix1 j := funext fun a => Fin.ext (by match a with | ⟨0, _⟩ => rfl)

/-! ## The three layers -/

/-- The first graph layer. -/
theorem layer1 (x0 : (⟨S50000x128, .f32⟩ : BufTy).Contents (Elt Ideal)) (x1 x2 : (⟨S800000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal)) :
    val_main_v31 (F := Ideal) x0 x1 x2 x3 x4 x5 x6
      = ginLayer x0 (val_main_v18 (F := Ideal) x0 x1 x2) (val_main_v20 (F := Ideal) x3) x4 (val_main_v26 (F := Ideal) x5) x6 := by
  funext i
  obtain ⟨r, j, rfl⟩ : ∃ (r : Fin 50000) (j : Fin 128), i = ix2 r j := ⟨i 0, i 1, eq_ix2 i⟩
  rw [ginLayer_ix2]
  simp only [val_main_v31_apply, val_main_v30_apply, val_main_v27_apply, val_main_v29_apply, val_main_v28_apply,
    val_main_call1_v0_apply, val_main_call1_cst_apply, val_main_v25_apply, val_main_v24_apply, val_main_v21_apply,
    val_main_v23_apply, val_main_v22_apply, val_main_v19_apply, val_main_call0_v0_apply, val_main_call0_cst_apply,
    lidx27, ridx27, lidx21, ridx21, bias23, bias29, Ideal.addf_def, Ideal.maximumf_def, Ideal.ofBits_def,
    ginAt, dense, clamp]

/-- The second graph layer, of the first's result. -/
theorem layer2 (x0 : (⟨S50000x128, .f32⟩ : BufTy).Contents (Elt Ideal)) (x1 x2 : (⟨S800000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal))
    (x7 : (⟨S128x128, .f32⟩ : BufTy).Contents (Elt Ideal)) (x8 : (⟨S128, .f32⟩ : BufTy).Contents (Elt Ideal))
    (x9 : (⟨S128x128, .f32⟩ : BufTy).Contents (Elt Ideal)) (x10 : (⟨S128, .f32⟩ : BufTy).Contents (Elt Ideal)) :
    val_main_v63 (F := Ideal) x0 x1 x2 x3 x4 x5 x6 x7 x8 x9 x10
      = ginLayer (val_main_v31 (F := Ideal) x0 x1 x2 x3 x4 x5 x6) (val_main_v50 (F := Ideal) x0 x1 x2 x3 x4 x5 x6) (val_main_v52 (F := Ideal) x7) x8 (val_main_v58 (F := Ideal) x9) x10 := by
  funext i
  obtain ⟨r, j, rfl⟩ : ∃ (r : Fin 50000) (j : Fin 128), i = ix2 r j := ⟨i 0, i 1, eq_ix2 i⟩
  rw [ginLayer_ix2]
  simp only [val_main_v63_apply, val_main_v62_apply, val_main_v59_apply, val_main_v61_apply, val_main_v60_apply,
    val_main_call3_v0_apply, val_main_call3_cst_apply, val_main_v57_apply, val_main_v56_apply, val_main_v53_apply,
    val_main_v55_apply, val_main_v54_apply, val_main_v51_apply, val_main_call2_v0_apply, val_main_call2_cst_apply,
    lidx59, ridx59, lidx53, ridx53, bias55, bias61, Ideal.addf_def, Ideal.maximumf_def, Ideal.ofBits_def,
    ginAt, dense, clamp]

/-- The final perceptron, of the second layer's result. -/
theorem layer3 (x0 : (⟨S50000x128, .f32⟩ : BufTy).Contents (Elt Ideal)) (x1 x2 : (⟨S800000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal))
    (x7 : (⟨S128x128, .f32⟩ : BufTy).Contents (Elt Ideal)) (x8 : (⟨S128, .f32⟩ : BufTy).Contents (Elt Ideal))
    (x9 : (⟨S128x128, .f32⟩ : BufTy).Contents (Elt Ideal)) (x10 : (⟨S128, .f32⟩ : BufTy).Contents (Elt Ideal))
    (x11 : (⟨S128x128, .f32⟩ : BufTy).Contents (Elt Ideal)) (x12 : (⟨S128, .f32⟩ : BufTy).Contents (Elt Ideal))
    (x13 : (⟨S64x128, .f32⟩ : BufTy).Contents (Elt Ideal)) (x14 : (⟨S64, .f32⟩ : BufTy).Contents (Elt Ideal)) :
    val_main_v74 (F := Ideal) x0 x1 x2 x3 x4 x5 x6 x7 x8 x9 x10 x11 x12 x13 x14
      = mlp (val_main_v63 (F := Ideal) x0 x1 x2 x3 x4 x5 x6 x7 x8 x9 x10) (val_main_v64 (F := Ideal) x11) x12 (val_main_v70 (F := Ideal) x13) x14 := by
  funext i
  obtain ⟨r, j, rfl⟩ : ∃ (r : Fin 50000) (j : Fin 64), i = ix2 r j := ⟨i 0, i 1, eq_ix2 i⟩
  rw [mlp_ix2]
  simp only [val_main_v74_apply, val_main_v71_apply, val_main_v73_apply, val_main_v72_apply,
    val_main_v69_apply, val_main_v68_apply, val_main_v65_apply, val_main_v67_apply, val_main_v66_apply,
    val_main_call4_v0_apply, val_main_call4_cst_apply,
    lidx71, ridx71, lidx65, ridx65, bias67, bias73, Ideal.addf_def, Ideal.maximumf_def, Ideal.ofBits_def,
    mlpAt, dense, clamp]

end Cert.ReferenceIdeal.Layers

end
-- ==== Proof.Stretch0.lean ====
/-
  The first stretch of host operations, from ANY contents `W` of the buffers: it leaves the features where they are,
  the aggregate of the features in the buffer the first region reads as its second operand, the two weight arrays
  transposed, the two biases reshaped to one row; and it writes no argument.
-/
import proofs.«154552_j9294309229066_1_alg».proof.Proof.GenP.KernelIdeal.Frame
import proofs.«154552_j9294309229066_1_alg».proof.Proof.RefRead
import Idealize.ShloMosaic.Lib.StableHlo.Run
import Idealize.ShloMosaic.Lib.ValueLayout
import Idealize.ShloMosaic.PureOps.Ideal

set_option maxRecDepth 16384

noncomputable section

namespace Cert.KernelIdeal.Stretch0

open Cert.KernelIdeal Cert.KernelIdeal.Gen Cert.KernelIdeal.GenP Cert.GinSpec
open Idealize.ShloMosaic Idealize.ShloMosaic.TcCoe Idealize.ShloMosaic.ValueIdx Idealize.SL.Sem Idealize.ShloMosaic.StableHlo

/-- A bias of length `a` reshaped to one row: the row of the reshaped array is the bias. -/
theorem rowOf_reshape {a : Nat} (x : Row a) (h : (⟨1, ![a]⟩ : Shape).ShapeCasts ⟨2, ![1, a]⟩) :
    rowOf (shapeCast ⟨2, ![1, a]⟩ x h) = x := by
  funext i
  obtain ⟨k, rfl⟩ : ∃ k : Fin a, i = ix1 k := ⟨i 0, eq_ix1 i⟩
  rw [rowOf_ix1]
  exact shapeCast_a_1a_apply x h 0 k

variable (W : Valuation τ sig (Elt Ideal))
theorem feat : StableHlo.after (hostOps0 (F := Ideal)) W (Proc.devRef .tc main_arg0) = W (Proc.devRef .tc main_arg0) := by dsimp only [hostOps0]; after_results <;> rfl
set_option maxHeartbeats 8000000 in
theorem aggr : StableHlo.after (hostOps0 (F := Ideal)) W (Proc.devRef .tc main_v18) = Cert.ReferenceIdeal.Layers.agg (W (Proc.devRef .tc main_arg0)) (W (Proc.devRef .tc main_arg1)) (W (Proc.devRef .tc main_arg2)) := by dsimp only [hostOps0]; after_results <;> rfl
theorem w1 : StableHlo.after (hostOps0 (F := Ideal)) W (Proc.devRef .tc main_v19) = Cert.ReferenceIdeal.Read.val_main_v20 (F := Ideal) (W (Proc.devRef .tc main_arg3)) := by dsimp only [hostOps0]; after_results <;> rfl
theorem b1 : rowOf (StableHlo.after (hostOps0 (F := Ideal)) W (Proc.devRef .tc main_v21)) = W (Proc.devRef .tc main_arg4) := by
  have e : StableHlo.after (hostOps0 (F := Ideal)) W (Proc.devRef .tc main_v21) = shapeCast S1x128 (W (Proc.devRef .tc main_arg4)) shapeCasts_S128_S1x128 := by dsimp only [hostOps0]; after_results <;> rfl
  rw [e]
  exact rowOf_reshape _ _
theorem w2 : StableHlo.after (hostOps0 (F := Ideal)) W (Proc.devRef .tc main_v20) = Cert.ReferenceIdeal.Read.val_main_v26 (F := Ideal) (W (Proc.devRef .tc main_arg5)) := by dsimp only [hostOps0]; after_results <;> rfl
theorem b2 : rowOf (StableHlo.after (hostOps0 (F := Ideal)) W (Proc.devRef .tc main_v22)) = W (Proc.devRef .tc main_arg6) := by
  have e : StableHlo.after (hostOps0 (F := Ideal)) W (Proc.devRef .tc main_v22) = shapeCast S1x128 (W (Proc.devRef .tc main_arg6)) shapeCasts_S128_S1x128 := by dsimp only [hostOps0]; after_results <;> rfl
  rw [e]
  exact rowOf_reshape _ _
theorem arg1 : StableHlo.after (hostOps0 (F := Ideal)) W (Proc.devRef .tc main_arg1) = W (Proc.devRef .tc main_arg1) := by dsimp only [hostOps0]; after_results <;> rfl
theorem arg2 : StableHlo.after (hostOps0 (F := Ideal)) W (Proc.devRef .tc main_arg2) = W (Proc.devRef .tc main_arg2) := by dsimp only [hostOps0]; after_results <;> rfl
theorem arg7 : StableHlo.after (hostOps0 (F := Ideal)) W (Proc.devRef .tc main_arg7) = W (Proc.devRef .tc main_arg7) := by dsimp only [hostOps0]; after_results <;> rfl
theorem arg8 : StableHlo.after (hostOps0 (F := Ideal)) W (Proc.devRef .tc main_arg8) = W (Proc.devRef .tc main_arg8) := by dsimp only [hostOps0]; after_results <;> rfl
theorem arg9 : StableHlo.after (hostOps0 (F := Ideal)) W (Proc.devRef .tc main_arg9) = W (Proc.devRef .tc main_arg9) := by dsimp only [hostOps0]; after_results <;> rfl
theorem arg10 : StableHlo.after (hostOps0 (F := Ideal)) W (Proc.devRef .tc main_arg10) = W (Proc.devRef .tc main_arg10) := by dsimp only [hostOps0]; after_results <;> rfl
theorem arg11 : StableHlo.after (hostOps0 (F := Ideal)) W (Proc.devRef .tc main_arg11) = W (Proc.devRef .tc main_arg11) := by dsimp only [hostOps0]; after_results <;> rfl
theorem arg12 : StableHlo.after (hostOps0 (F := Ideal)) W (Proc.devRef .tc main_arg12) = W (Proc.devRef .tc main_arg12) := by dsimp only [hostOps0]; after_results <;> rfl
theorem arg13 : StableHlo.after (hostOps0 (F := Ideal)) W (Proc.devRef .tc main_arg13) = W (Proc.devRef .tc main_arg13) := by dsimp only [hostOps0]; after_results <;> rfl
theorem arg14 : StableHlo.after (hostOps0 (F := Ideal)) W (Proc.devRef .tc main_arg14) = W (Proc.devRef .tc main_arg14) := by dsimp only [hostOps0]; after_results <;> rfl

end Cert.KernelIdeal.Stretch0

end
-- ==== Proof.Stretch1.lean ====
/-
  The second stretch of host operations, from ANY contents `W` of the buffers: it leaves the first region's result
  where it is, the aggregate of that result in the buffer the second region reads as its second operand, the second
  layer's weight arrays transposed and its biases reshaped to one row; and it writes no argument.
-/
import proofs.«154552_j9294309229066_1_alg».proof.Proof.GenP.KernelIdeal.Frame
import proofs.«154552_j9294309229066_1_alg».proof.Proof.RefRead
import Idealize.ShloMosaic.Lib.StableHlo.Run
import Idealize.ShloMosaic.Lib.ValueLayout
import Idealize.ShloMosaic.PureOps.Ideal

set_option maxRecDepth 16384

noncomputable section

namespace Cert.KernelIdeal.Stretch1

open Cert.KernelIdeal Cert.KernelIdeal.Gen Cert.KernelIdeal.GenP Cert.GinSpec
open Idealize.ShloMosaic Idealize.ShloMosaic.TcCoe Idealize.ShloMosaic.ValueIdx Idealize.SL.Sem Idealize.ShloMosaic.StableHlo

/-- A bias of length `a` reshaped to one row: the row of the reshaped array is the bias. -/
theorem rowOf_reshape {a : Nat} (x : Row a) (h : (⟨1, ![a]⟩ : Shape).ShapeCasts ⟨2, ![1, a]⟩) :
    rowOf (shapeCast ⟨2, ![1, a]⟩ x h) = x := by
  funext i
  obtain ⟨k, rfl⟩ : ∃ k : Fin a, i = ix1 k := ⟨i 0, eq_ix1 i⟩
  rw [rowOf_ix1]
  exact shapeCast_a_1a_apply x h 0 k

variable (W : Valuation τ sig (Elt Ideal))
theorem feat : StableHlo.after (hostOps1 (F := Ideal)) W (Proc.devRef .tc main_v23) = W (Proc.devRef .tc main_v23) := by dsimp only [hostOps1]; after_results <;> rfl
set_option maxHeartbeats 8000000 in
theorem aggr : StableHlo.after (hostOps1 (F := Ideal)) W (Proc.devRef .tc main_v42) = Cert.ReferenceIdeal.Layers.agg (W (Proc.devRef .tc main_v23)) (W (Proc.devRef .tc main_arg1)) (W (Proc.devRef .tc main_arg2)) := by dsimp only [hostOps1]; after_results <;> rfl
theorem w1 : StableHlo.after (hostOps1 (F := Ideal)) W (Proc.devRef .tc main_v43) = Cert.ReferenceIdeal.Read.val_main_v52 (F := Ideal) (W (Proc.devRef .tc main_arg7)) := by dsimp only [hostOps1]; after_results <;> rfl
theorem b1 : rowOf (StableHlo.after (hostOps1 (F := Ideal)) W (Proc.devRef .tc main_v45)) = W (Proc.devRef .tc main_arg8) := by
  have e : StableHlo.after (hostOps1 (F := Ideal)) W (Proc.devRef .tc main_v45) = shapeCast S1x128 (W (Proc.devRef .tc main_arg8)) shapeCasts_S128_S1x128 := by dsimp only [hostOps1]; after_results <;> rfl
  rw [e]
  exact rowOf_reshape _ _
theorem w2 : StableHlo.after (hostOps1 (F := Ideal)) W (Proc.devRef .tc main_v44) = Cert.ReferenceIdeal.Read.val_main_v58 (F := Ideal) (W (Proc.devRef .tc main_arg9)) := by dsimp only [hostOps1]; after_results <;> rfl
theorem b2 : rowOf (StableHlo.after (hostOps1 (F := Ideal)) W (Proc.devRef .tc main_v46)) = W (Proc.devRef .tc main_arg10) := by
  have e : StableHlo.after (hostOps1 (F := Ideal)) W (Proc.devRef .tc main_v46) = shapeCast S1x128 (W (Proc.devRef .tc main_arg10)) shapeCasts_S128_S1x128 := by dsimp only [hostOps1]; after_results <;> rfl
  rw [e]
  exact rowOf_reshape _ _
theorem arg11 : StableHlo.after (hostOps1 (F := Ideal)) W (Proc.devRef .tc main_arg11) = W (Proc.devRef .tc main_arg11) := by dsimp only [hostOps1]; after_results <;> rfl
theorem arg12 : StableHlo.after (hostOps1 (F := Ideal)) W (Proc.devRef .tc main_arg12) = W (Proc.devRef .tc main_arg12) := by dsimp only [hostOps1]; after_results <;> rfl
theorem arg13 : StableHlo.after (hostOps1 (F := Ideal)) W (Proc.devRef .tc main_arg13) = W (Proc.devRef .tc main_arg13) := by dsimp only [hostOps1]; after_results <;> rfl
theorem arg14 : StableHlo.after (hostOps1 (F := Ideal)) W (Proc.devRef .tc main_arg14) = W (Proc.devRef .tc main_arg14) := by dsimp only [hostOps1]; after_results <;> rfl

end Cert.KernelIdeal.Stretch1

end
-- ==== Proof.Stretch2.lean ====
/-
  The third stretch of host operations, from ANY contents `W` of the buffers: it leaves the second region's result
  where it is, the last layer's weight arrays transposed and its biases reshaped to one row.
-/
import proofs.«154552_j9294309229066_1_alg».proof.Proof.GenP.KernelIdeal.Frame
import proofs.«154552_j9294309229066_1_alg».proof.Proof.RefRead
import Idealize.ShloMosaic.Lib.StableHlo.Run
import Idealize.ShloMosaic.Lib.ValueLayout
import Idealize.ShloMosaic.PureOps.Ideal

set_option maxRecDepth 16384

noncomputable section

namespace Cert.KernelIdeal.Stretch2

open Cert.KernelIdeal Cert.KernelIdeal.Gen Cert.KernelIdeal.GenP Cert.GinSpec
open Idealize.ShloMosaic Idealize.ShloMosaic.TcCoe Idealize.ShloMosaic.ValueIdx Idealize.SL.Sem Idealize.ShloMosaic.StableHlo

/-- A bias of length `a` reshaped to one row: the row of the reshaped array is the bias. -/
theorem rowOf_reshape {a : Nat} (x : Row a) (h : (⟨1, ![a]⟩ : Shape).ShapeCasts ⟨2, ![1, a]⟩) :
    rowOf (shapeCast ⟨2, ![1, a]⟩ x h) = x := by
  funext i
  obtain ⟨k, rfl⟩ : ∃ k : Fin a, i = ix1 k := ⟨i 0, eq_ix1 i⟩
  rw [rowOf_ix1]
  exact shapeCast_a_1a_apply x h 0 k

variable (W : Valuation τ sig (Elt Ideal))
theorem feat : StableHlo.after (hostOps2 (F := Ideal)) W (Proc.devRef .tc main_v47) = W (Proc.devRef .tc main_v47) := by dsimp only [hostOps2]; after_results <;> rfl
theorem w1 : StableHlo.after (hostOps2 (F := Ideal)) W (Proc.devRef .tc main_v48) = Cert.ReferenceIdeal.Read.val_main_v64 (F := Ideal) (W (Proc.devRef .tc main_arg11)) := by dsimp only [hostOps2]; after_results <;> rfl
theorem b1 : rowOf (StableHlo.after (hostOps2 (F := Ideal)) W (Proc.devRef .tc main_v50)) = W (Proc.devRef .tc main_arg12) := by
  have e : StableHlo.after (hostOps2 (F := Ideal)) W (Proc.devRef .tc main_v50) = shapeCast S1x128 (W (Proc.devRef .tc main_arg12)) shapeCasts_S128_S1x128 := by dsimp only [hostOps2]; after_results <;> rfl
  rw [e]
  exact rowOf_reshape _ _
theorem w2 : StableHlo.after (hostOps2 (F := Ideal)) W (Proc.devRef .tc main_v49) = Cert.ReferenceIdeal.Read.val_main_v70 (F := Ideal) (W (Proc.devRef .tc main_arg13)) := by dsimp only [hostOps2]; after_results <;> rfl
theorem b2 : rowOf (StableHlo.after (hostOps2 (F := Ideal)) W (Proc.devRef .tc main_v51)) = W (Proc.devRef .tc main_arg14) := by
  have e : StableHlo.after (hostOps2 (F := Ideal)) W (Proc.devRef .tc main_v51) = shapeCast S1x64 (W (Proc.devRef .tc main_arg14)) shapeCasts_S64_S1x64 := by dsimp only [hostOps2]; after_results <;> rfl
  rw [e]
  exact rowOf_reshape _ _

end Cert.KernelIdeal.Stretch2

end
-- ==== Proof.FoldValue.lean ====
/-
  The idealized kernel's result as one function of its arguments.  Folding @main from the launch memory: the first
  stretch of host operations leaves the aggregate of the features and the transposed weights; the first region's
  25 row blocks make its result array the first graph layer of those; the second stretch aggregates that array; the
  second region makes the second graph layer; the third stretch transposes the last weights; the third region makes
  the final perceptron.  No stretch and no region writes an argument, so each is read back as launched.  Each
  layer is stated as the reference's own stage of the same arguments, so the result buffer ends at the reference's
  last stage.
-/
import proofs.«154552_j9294309229066_1_alg».proof.Proof.RunFold
import proofs.«154552_j9294309229066_1_alg».proof.Proof.Blocks0
import proofs.«154552_j9294309229066_1_alg».proof.Proof.Blocks1
import proofs.«154552_j9294309229066_1_alg».proof.Proof.Blocks2
import proofs.«154552_j9294309229066_1_alg».proof.Proof.Stretch0
import proofs.«154552_j9294309229066_1_alg».proof.Proof.Stretch1
import proofs.«154552_j9294309229066_1_alg».proof.Proof.Stretch2
import proofs.«154552_j9294309229066_1_alg».proof.Proof.RefRead

set_option maxRecDepth 16384

noncomputable section

namespace Cert.KernelIdeal.FoldValue

open Cert.KernelIdeal Cert.KernelIdeal.Gen Cert.KernelIdeal.GenP Cert.GinSpec
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The arguments, read back through the fold -/

theorem w2_arg1 : W2 m ρ c (Proc.devRef .tc main_arg1) = (m ((c.tc : Thread nD τ).loc main_arg1)) :=
  (W2_of_ne m ρ c main_arg1 (by decide)).trans (Stretch0.arg1 (W0 m ρ c))
theorem w2_arg2 : W2 m ρ c (Proc.devRef .tc main_arg2) = (m ((c.tc : Thread nD τ).loc main_arg2)) :=
  (W2_of_ne m ρ c main_arg2 (by decide)).trans (Stretch0.arg2 (W0 m ρ c))
theorem w2_arg7 : W2 m ρ c (Proc.devRef .tc main_arg7) = (m ((c.tc : Thread nD τ).loc main_arg7)) :=
  (W2_of_ne m ρ c main_arg7 (by decide)).trans (Stretch0.arg7 (W0 m ρ c))
theorem w2_arg8 : W2 m ρ c (Proc.devRef .tc main_arg8) = (m ((c.tc : Thread nD τ).loc main_arg8)) :=
  (W2_of_ne m ρ c main_arg8 (by decide)).trans (Stretch0.arg8 (W0 m ρ c))
theorem w2_arg9 : W2 m ρ c (Proc.devRef .tc main_arg9) = (m ((c.tc : Thread nD τ).loc main_arg9)) :=
  (W2_of_ne m ρ c main_arg9 (by decide)).trans (Stretch0.arg9 (W0 m ρ c))
theorem w2_arg10 : W2 m ρ c (Proc.devRef .tc main_arg10) = (m ((c.tc : Thread nD τ).loc main_arg10)) :=
  (W2_of_ne m ρ c main_arg10 (by decide)).trans (Stretch0.arg10 (W0 m ρ c))
theorem w2_arg11 : W2 m ρ c (Proc.devRef .tc main_arg11) = (m ((c.tc : Thread nD τ).loc main_arg11)) :=
  (W2_of_ne m ρ c main_arg11 (by decide)).trans (Stretch0.arg11 (W0 m ρ c))
theorem w2_arg12 : W2 m ρ c (Proc.devRef .tc main_arg12) = (m ((c.tc : Thread nD τ).loc main_arg12)) :=
  (W2_of_ne m ρ c main_arg12 (by decide)).trans (Stretch0.arg12 (W0 m ρ c))
theorem w2_arg13 : W2 m ρ c (Proc.devRef .tc main_arg13) = (m ((c.tc : Thread nD τ).loc main_arg13)) :=
  (W2_of_ne m ρ c main_arg13 (by decide)).trans (Stretch0.arg13 (W0 m ρ c))
theorem w2_arg14 : W2 m ρ c (Proc.devRef .tc main_arg14) = (m ((c.tc : Thread nD τ).loc main_arg14)) :=
  (W2_of_ne m ρ c main_arg14 (by decide)).trans (Stretch0.arg14 (W0 m ρ c))
theorem w4_arg11 : W4 m ρ c (Proc.devRef .tc main_arg11) = (m ((c.tc : Thread nD τ).loc main_arg11)) :=
  (W4_of_ne m ρ c main_arg11 (by decide)).trans ((Stretch1.arg11 (W2 m ρ c)).trans (w2_arg11 m ρ c))
theorem w4_arg12 : W4 m ρ c (Proc.devRef .tc main_arg12) = (m ((c.tc : Thread nD τ).loc main_arg12)) :=
  (W4_of_ne m ρ c main_arg12 (by decide)).trans ((Stretch1.arg12 (W2 m ρ c)).trans (w2_arg12 m ρ c))
theorem w4_arg13 : W4 m ρ c (Proc.devRef .tc main_arg13) = (m ((c.tc : Thread nD τ).loc main_arg13)) :=
  (W4_of_ne m ρ c main_arg13 (by decide)).trans ((Stretch1.arg13 (W2 m ρ c)).trans (w2_arg13 m ρ c))
theorem w4_arg14 : W4 m ρ c (Proc.devRef .tc main_arg14) = (m ((c.tc : Thread nD τ).loc main_arg14)) :=
  (W4_of_ne m ρ c main_arg14 (by decide)).trans ((Stretch1.arg14 (W2 m ρ c)).trans (w2_arg14 m ρ c))

/-! ## The first region: entered with the features, their aggregate, the transposed weights and the biases -/

theorem in0_feat : V1 m ρ c main_arg0 = (m ((c.tc : Thread nD τ).loc main_arg0)) := Stretch0.feat (W0 m ρ c)
theorem in0_aggr : V1 m ρ c main_v18 = Cert.ReferenceIdeal.Layers.agg (m ((c.tc : Thread nD τ).loc main_arg0)) (m ((c.tc : Thread nD τ).loc main_arg1)) (m ((c.tc : Thread nD τ).loc main_arg2)) := Stretch0.aggr (W0 m ρ c)
theorem in0_w1 : V1 m ρ c main_v19 = Cert.ReferenceIdeal.Read.val_main_v20 (F := Ideal) (m ((c.tc : Thread nD τ).loc main_arg3)) := Stretch0.w1 (W0 m ρ c)
theorem in0_b1 : rowOf (V1 m ρ c main_v21) = (m ((c.tc : Thread nD τ).loc main_arg4)) := Stretch0.b1 (W0 m ρ c)
theorem in0_w2 : V1 m ρ c main_v20 = Cert.ReferenceIdeal.Read.val_main_v26 (F := Ideal) (m ((c.tc : Thread nD τ).loc main_arg5)) := Stretch0.w2 (W0 m ρ c)
theorem in0_b2 : rowOf (V1 m ρ c main_v22) = (m ((c.tc : Thread nD τ).loc main_arg6)) := Stretch0.b2 (W0 m ρ c)

/-- After the first region its result array is the reference's first graph layer of the arguments. -/
theorem out0 : W2 m ρ c (Proc.devRef .tc main_v23) = (Cert.ReferenceIdeal.Read.val_main_v31 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) := by
  refine (W2_arr m ρ c 6).trans ((Blocks0.array0 (V1 m ρ) c).trans ?_)
  rw [in0_feat, in0_aggr, in0_w1, in0_b1, in0_w2, in0_b2]
  exact (Cert.ReferenceIdeal.Layers.layer1 _ _ _ _ _ _ _).symm

/-! ## The second region -/

theorem in1_feat : V3 m ρ c main_v23 = (Cert.ReferenceIdeal.Read.val_main_v31 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) := (Stretch1.feat (W2 m ρ c)).trans (out0 m ρ c)
theorem in1_aggr : V3 m ρ c main_v42 = Cert.ReferenceIdeal.Layers.agg (Cert.ReferenceIdeal.Read.val_main_v31 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg1)) (m ((c.tc : Thread nD τ).loc main_arg2)) := by
  refine (Stretch1.aggr (W2 m ρ c)).trans ?_
  rw [out0 m ρ c, w2_arg1 m ρ c, w2_arg2 m ρ c]
theorem in1_w1 : V3 m ρ c main_v43 = Cert.ReferenceIdeal.Read.val_main_v52 (F := Ideal) (m ((c.tc : Thread nD τ).loc main_arg7)) := by
  refine (Stretch1.w1 (W2 m ρ c)).trans ?_
  rw [w2_arg7 m ρ c]
theorem in1_b1 : rowOf (V3 m ρ c main_v45) = (m ((c.tc : Thread nD τ).loc main_arg8)) := (Stretch1.b1 (W2 m ρ c)).trans (w2_arg8 m ρ c)
theorem in1_w2 : V3 m ρ c main_v44 = Cert.ReferenceIdeal.Read.val_main_v58 (F := Ideal) (m ((c.tc : Thread nD τ).loc main_arg9)) := by
  refine (Stretch1.w2 (W2 m ρ c)).trans ?_
  rw [w2_arg9 m ρ c]
theorem in1_b2 : rowOf (V3 m ρ c main_v46) = (m ((c.tc : Thread nD τ).loc main_arg10)) := (Stretch1.b2 (W2 m ρ c)).trans (w2_arg10 m ρ c)

/-- After the second region its result array is the reference's second graph layer of the arguments. -/
theorem out1 : W4 m ρ c (Proc.devRef .tc main_v47) = (Cert.ReferenceIdeal.Read.val_main_v63 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) := by
  refine (W4_arr m ρ c 6).trans ((Blocks1.array1 (V3 m ρ) c).trans ?_)
  rw [in1_feat, in1_aggr, in1_w1, in1_b1, in1_w2, in1_b2]
  exact (Cert.ReferenceIdeal.Layers.layer2 _ _ _ _ _ _ _ _ _ _ _).symm

/-! ## The third region -/

theorem in2_feat : V5 m ρ c main_v47 = (Cert.ReferenceIdeal.Read.val_main_v63 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) := (Stretch2.feat (W4 m ρ c)).trans (out1 m ρ c)
theorem in2_w1 : V5 m ρ c main_v48 = Cert.ReferenceIdeal.Read.val_main_v64 (F := Ideal) (m ((c.tc : Thread nD τ).loc main_arg11)) := by
  refine (Stretch2.w1 (W4 m ρ c)).trans ?_
  rw [w4_arg11 m ρ c]
theorem in2_b1 : rowOf (V5 m ρ c main_v50) = (m ((c.tc : Thread nD τ).loc main_arg12)) := (Stretch2.b1 (W4 m ρ c)).trans (w4_arg12 m ρ c)
theorem in2_w2 : V5 m ρ c main_v49 = Cert.ReferenceIdeal.Read.val_main_v70 (F := Ideal) (m ((c.tc : Thread nD τ).loc main_arg13)) := by
  refine (Stretch2.w2 (W4 m ρ c)).trans ?_
  rw [w4_arg13 m ρ c]
theorem in2_b2 : rowOf (V5 m ρ c main_v51) = (m ((c.tc : Thread nD τ).loc main_arg14)) := (Stretch2.b2 (W4 m ρ c)).trans (w4_arg14 m ρ c)

/-- After the third region the result buffer is the reference's last stage of the arguments. -/
theorem out2 : W6 m ρ c (Proc.devRef .tc main_v52) = (Cert.ReferenceIdeal.Read.val_main_v74 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))) := by
  refine (W6_arr m ρ c 5).trans ((Blocks2.array2 (V5 m ρ) c).trans ?_)
  rw [in2_feat, in2_w1, in2_b1, in2_w2, in2_b2]
  exact (Cert.ReferenceIdeal.Layers.layer3 _ _ _ _ _ _ _ _ _ _ _ _ _ _ _).symm

/-! ## The run -/

/-- Every weakly fair execution of the idealized kernel terminates with the result buffer at the reference's last
    stage of the launch arguments, the arguments unchanged. -/
theorem run : θ_run defs (onTc (τ := τ) (main (F := Ideal))) ⟨m, fun _ => 0, ρ⟩ (fun r => ∀ c : Dev nD,
      r.2.mem ((c.tc : Thread nD τ).loc main_v52) = (Cert.ReferenceIdeal.Read.val_main_v74 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨(h c).1.trans (out2 m ρ c), (h c).2⟩) (RunFold.run_result m ρ)

end Cert.KernelIdeal.FoldValue

end
-- ==== Proof.lean ====
/-
  The proof of `Cert.Claim`: a three-layer graph network (two graph-isomorphism layers with mean aggregation, then
  a two-layer perceptron) whose dense layers run as three kernel regions over blocks of 2000 node rows, against the
  same network written with whole-array operations.

  At the extended reals both programs compute, for every node row `r` and output feature `j`, the same nested
  sums: a dense layer is `∑ k, x (r, k) · Wᵀ (k, j) + b j`, clamped below at zero where the network has a relu, the
  graph layers applied to the features plus the mean of the in-neighbours' features.  The kernel's bf16 casts are
  the identity there, its matrix unit's product into a zero accumulator is the plain sum, and a row block of a
  dense layer is the dense layer of the row block — the one law joining the two sides; it moves no factor across a
  sum and cancels nothing, so it holds at the infinities too and the finiteness precondition is never opened.  The
  aggregation (gather, scatter-add, divide by the clamped in-degree) is the same host operations on both sides and
  is carried as one function, never opened.

  Proof/Spec: the layers index by index.  Proof/Payload: each kernel body's stored value is the layer's row
  function.  Proof/Blocks0–2: a region's 25 row blocks make its result array the layer of its entry arrays.
  Proof/Stretch0–2: what each stretch of host operations leaves.  Proof/RunFold: the kernel's run with its final
  memory named.  Proof/FoldValue: the fold, region by region.  Proof/RefRead: the reference layer by layer.
  `preserves` is `True`: the idealization rewrote nothing.
-/
import proofs.«154552_j9294309229066_1_alg».proof.Defs
import proofs.«154552_j9294309229066_1_alg».proof.Proof.Gen.Kernel
import proofs.«154552_j9294309229066_1_alg».proof.Proof.Gen.Kernel.Skeleton
import proofs.«154552_j9294309229066_1_alg».proof.Proof.GenP.Kernel.Launch
import proofs.«154552_j9294309229066_1_alg».proof.Proof.Gen.Kernel.Points
import proofs.«154552_j9294309229066_1_alg».proof.Proof.GenP.Kernel.Frame
import proofs.«154552_j9294309229066_1_alg».proof.Proof.Gen.KernelIdeal
import proofs.«154552_j9294309229066_1_alg».proof.Proof.Gen.KernelIdeal.Skeleton
import proofs.«154552_j9294309229066_1_alg».proof.Proof.GenP.KernelIdeal.Launch
import proofs.«154552_j9294309229066_1_alg».proof.Proof.Gen.KernelIdeal.Points
import proofs.«154552_j9294309229066_1_alg».proof.Proof.GenP.KernelIdeal.Frame
import proofs.«154552_j9294309229066_1_alg».proof.Proof.Gen.ReferenceIdeal
import proofs.«154552_j9294309229066_1_alg».proof.Proof.Gen.ReferenceIdeal.Run
import proofs.«154552_j9294309229066_1_alg».proof.Proof.Gen.ReferenceIdeal.Read
import proofs.«154552_j9294309229066_1_alg».proof.Proof.Gen.Pre_finite_inputs
import proofs.«154552_j9294309229066_1_alg».proof.Proof.FoldValue
import Idealize.ShloMosaic.Adequacy
import Idealize.ShloMosaic.Init

set_option maxRecDepth 16384

noncomputable section

namespace Cert.Proof

open Idealize.ShloMosaic Idealize.ShloMosaic.TcCoe Idealize.SL.Sem

/-- The word-level kernel terminates without a fault and leaves its arguments as launched. -/
theorem frame_k : Cert.frame_Kernel := fun m ρ _ => Cert.Kernel.GenP.frame m ρ

/-- So does the idealized kernel. -/
theorem frame_ki : Cert.frame_KernelIdeal := fun m ρ _ => Cert.KernelIdeal.GenP.frame m ρ

/-- The reference has no kernel region: its frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the result at the reference's last stage of
    those arguments: the kernel by the fold of its three regions, the reference by its own run. -/
theorem algebraic : Cert.algebraic_KernelIdeal_ReferenceIdeal := by
  intro m ρ m' ρ' _ hagree
  refine ⟨fun c => Cert.ReferenceIdeal.Read.val_main_v74 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)),
    Cert.KernelIdeal.FoldValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v74_eq]
  obtain ⟨h0, h1, h2, h3, h4, h5, h6, h7, h8, h9, h10, h11, h12, h13, h14⟩ := hagree c
  rw [h0, h1, h2, h3, h4, h5, h6, h7, h8, h9, h10, h11, h12, h13, h14]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
